-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_1)) (v1 : (c : Dev Cert.KernelIdeal.nD) → Buf (Elt Ideal) ((c.tc : Thread Cert.KernelIdeal.nD Cert.KernelIdeal.τ).loc Cert.KernelIdeal.main_v9_0)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_1) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v19) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_v31) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S1024x4096 .f32) (main_arg5 : FVec F S4096 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S1024x4096 .f32) (main_arg1 : FVec F S1024x4096 .f32) (main_arg2 : FVec F S4096x4096 .f32) (main_arg3 : FVec F S1024x4096 .f32) (main_arg4 : FVec F S1024x4096 .f32) (main_arg5 : FVec F S4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_v13 main_v16
-- ==== Kernel.lean ====
abbrev S1024x4096 : Shape := ⟨2, ![1024, 4096]⟩
abbrev S4096x4096 : Shape := ⟨2, ![4096, 4096]⟩
abbrev S4096 : Shape := ⟨1, ![4096]⟩
abbrev S4096x1 : Shape := ⟨2, ![4096, 1]⟩
abbrev S_ : Shape := ⟨0, ![]⟩
abbrev S512x1024 : Shape := ⟨2, ![512, 1024]⟩
abbrev S1024x512 : Shape := ⟨2, ![1024, 512]⟩
abbrev S1024x1024 : Shape := ⟨2, ![1024, 1024]⟩
abbrev S512x1 : Shape := ⟨2, ![512, 1]⟩

abbrev nBuf : Space → Nat
  | .hbm => 33
  | .vmem => 17
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S4096x4096, .f32⟩
  | .hbm, ⟨3, _⟩ => ⟨S1024x4096, .f32⟩
  | .hbm, ⟨4, _⟩ => ⟨S1024x4096, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S1024x4096, .f32⟩
  | .hbm, ⟨9, _⟩ => ⟨S1024x4096, .f32⟩
  | .hbm, ⟨10, _⟩ => ⟨S_, .f32⟩
  | .hbm, ⟨11, _⟩ => ⟨S1024x4096, .f32⟩
  | .hbm, ⟨12, _⟩ => ⟨S1024x4096, .f32⟩
  | .hbm, ⟨13, _⟩ => ⟨S1024x4096, .bf16⟩
  | .hbm, ⟨14, _⟩ => ⟨S1024x4096, .bf16⟩
  | .hbm, ⟨15, _⟩ => ⟨S1024x4096, .bf16⟩
  | .hbm, ⟨16, _⟩ => ⟨S1024x4096, .bf16⟩
  | .hbm, ⟨17, _⟩ => ⟨S4096x4096, .f32⟩
  | .hbm, ⟨18, _⟩ => ⟨S1024x4096, .f32⟩
  | .hbm, ⟨19, _⟩ => ⟨S1024x4096, .f32⟩
  | .hbm, ⟨20, _⟩ => ⟨S1024x4096, .f32⟩
  | .hbm, ⟨21, _⟩ => ⟨S_, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S512x1, .f32⟩
  | .local _ .vmem, ⟨11, _⟩ => ⟨S512x1, .f32⟩
  | .local _ .vmem, ⟨12, _⟩ => ⟨S512x1024, .f32⟩
  | .local _ .vmem, ⟨13, _⟩ => ⟨S512x1024, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_26 : BitVec 32 := 0#32
  let v42 : BitVec 1 := Scalar.cmpi .ne v41 c0_i32_26
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S4096_S4096x1 : S4096.ShapeCasts S4096x1
  bcast_S_S1024x4096 : S_.BroadcastsInDim S1024x4096 (![] : Fin 0 → Fin S1024x4096.rank)
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  broadcasts_S512x1_S512x1024 : S512x1.Broadcasts S512x1024
  reducesTo_S1024x4096_S4096_d0 : S1024x4096.ReducesTo [0] S4096
  h_S_ : 0 < S_.numel
  bcast_S_S4096 : S_.BroadcastsInDim S4096 (![] : Fin 0 → Fin S4096.rank)
  dot_S1024x512_S1024x1024_S512x1024_0_0_1_1_n_n_wf : DotDims.WF S1024x512 S1024x1024 S512x1024 [0] [0] [1] [1] [] []
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .f32 = 32 ∨ (Rect.block (s := S4096x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x4096.size a
  hwx0_1 : ∀ i : grid0.Coords, EltTy.bits .bf16 = 32 ∨ (Rect.block (s := S1024x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x4096.size a
  hwx0_2 : ∀ i : grid0.Coords, EltTy.bits .bf16 = 32 ∨ (Rect.block (s := S1024x4096) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x4096.size a
  hwx0_3 : ∀ i : grid0.Coords, EltTy.bits .bf16 = 32 ∨ (Rect.block (s := S1024x4096) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x4096.size a
  hwx0_4 : ∀ i : grid0.Coords, EltTy.bits .bf16 = 32 ∨ (Rect.block (s := S1024x4096) S1024x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x4096.size a
  hwx0_6 : ∀ i : grid0.Coords, EltTy.bits .f32 = 32 ∨ (Rect.block (s := S4096x4096) S512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x4096.size a
  hwx0_7 : ∀ i : grid0.Coords, EltTy.bits .f32 = 32 ∨ (Rect.block (s := S1024x4096) S1024x512.size (cc0_transform_7 i) (hinb0_7 i)).WholeWords (EltTy.packing .f32)

variable [Facts₀]

def dot_S1024x512_S1024x1024_S512x1024_0_0_1_1_n_n : DotDims S1024x512 S1024x1024 S512x1024 where
  lhsContracting := [0]
  rhsContracting := [0]
  lhsNonContracting := [1]
  rhsNonContracting := [1]
  lhsBatch := []
  rhsBatch := []
  wf := dot_S1024x512_S1024x1024_S512x1024_0_0_1_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S1024x4096 : Shape := ⟨2, ![1024, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩

abbrev nBuf : Space → Nat
  | .hbm => 61
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S4096x4096, .f32⟩
  | .hbm, ⟨3, _⟩ => ⟨S1024x4096, .f32⟩
  | .hbm, ⟨4, _⟩ => ⟨S1024x4096, .f32⟩
  | .hbm, ⟨5, _⟩ => ⟨S4096, .f32⟩
  | .hbm, ⟨6, _⟩ => ⟨S_, .f32⟩
  | .hbm, ⟨7, _⟩ => ⟨S1024x4096, .f32⟩
  | .hbm, ⟨8, _⟩ => ⟨S1024x4096, .f32⟩
  | .hbm, ⟨9, _⟩ => ⟨S_, .f32⟩
  | .hbm, ⟨10, _⟩ => ⟨S1024x4096, .f32⟩
  | .hbm, ⟨11, _⟩ => ⟨S1024x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S4096, .f32⟩
  | .hbm, ⟨57, _⟩ => ⟨S1024x4096, .f32⟩
  | .hbm, ⟨58, _⟩ => ⟨S1024x4096, .f32⟩
  | .hbm, ⟨59, _⟩ => ⟨S4096x4096, .f32⟩
  | .hbm, ⟨60, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_cst_8 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v23 : Ref sig .tc := ⟨.hbm, 44, rfl⟩
abbrev main_cst_9 : Ref sig .tc := ⟨.hbm, 45, rfl⟩
abbrev main_v24 : Ref sig .tc := ⟨.hbm, 46, rfl⟩
abbrev main_cst_10 : Ref sig .tc := ⟨.hbm, 47, rfl⟩
abbrev main_v25 : Ref sig .tc := ⟨.hbm, 48, rfl⟩
abbrev main_v26 : Ref sig .tc := ⟨.hbm, 49, rfl⟩
abbrev main_cst_11 : Ref sig .tc := ⟨.hbm, 50, rfl⟩
abbrev main_v27 : Ref sig .tc := ⟨.hbm, 51, rfl⟩
abbrev main_v28 : Ref sig .tc := ⟨.hbm, 52, rfl⟩
abbrev main_cst_12 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩

abbrev nD : Nat := 1
abbrev τ : Topo := Topo.v7x

variable {F : FTy → Type} [FloatOps F]

class Facts₀ : Prop where
  bcast_S_S1024x4096 : S_.BroadcastsInDim S1024x4096 (![] : Fin 0 → Fin S1024x4096.rank)
  bcast_S_S4096x4096 : S_.BroadcastsInDim S4096x4096 (![] : Fin 0 → Fin S4096x4096.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  reducesTo_S1024x4096_S4096_d0 : S1024x4096.ReducesTo [0] S4096
  h_S_ : 0 < S_.numel
  transposes_S4096x4096_S4096x4096_1_0 : S4096x4096.Transposes [1, 0] S4096x4096
  dot_S1024x4096_S1024x4096_S4096x4096_0_0_1_1_n_n_wf : DotDims.WF S1024x4096 S1024x4096 S4096x4096 [0] [0] [1] [1] [] []
  dot_S1024x4096_S4096x4096_S1024x4096_1_0_0_1_n_n_wf : DotDims.WF S1024x4096 S4096x4096 S1024x4096 [1] [0] [0] [1] [] []

variable [Facts₀]

def dot_S1024x4096_S1024x4096_S4096x4096_0_0_1_1_n_n : DotDims S1024x4096 S1024x4096 S4096x4096 where
  lhsContracting := [0]
  rhsContracting := [0]
  lhsNonContracting := [1]
  rhsNonContracting := [1]
  lhsBatch := []
  rhsBatch := []
  wf := dot_S1024x4096_S1024x4096_S4096x4096_0_0_1_1_n_n_wf
def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf

class Facts : Prop extends Facts₀ where

variable [Facts]
-- ==== Proof.Consts.lean ====
/-
  The float literals of the weight update whose VALUES matter, as the extended reals their patterns denote.
  The learning rate 0.01 is the dyadic 10737418 / 2^30 in binary32; the kernel folds the batch size 1024 = 2^10
  into it, which only lowers the exponent: 10737418 / 2^40.  The reference instead multiplies by the rate and
  divides by 1024.  Both spellings are the same real factor, and on the extended reals a product with a real
  factor re-associates freely, so no finiteness of the sums is needed.
-/
import Idealize.ShloMosaic.PureOps.Ideal

noncomputable section

namespace Cert.Consts

open Idealize.ShloMosaic

/-- The rate 0.01 as binary32. -/
theorem ofBits_rate : Ideal.ofBits .f32 0x3C23D70A#32 = ((10737418 / 2 ^ 30 : ℝ) : EReal) := by
  simp [Ideal.ofBits, Ideal.ieee, -EReal.coe_mul]; norm_num

/-- Its negative. -/
theorem ofBits_negRate : Ideal.ofBits .f32 0xBC23D70A#32 = ((-(10737418 / 2 ^ 30) : ℝ) : EReal) := by
  simp [Ideal.ofBits, Ideal.ieee, -EReal.coe_mul]; norm_num

/-- The rate divided by the batch size, as the kernel spells it. -/
theorem ofBits_rateOverBatch : Ideal.ofBits .f32 0x3723D70A#32 = ((10737418 / 2 ^ 40 : ℝ) : EReal) := by
  simp [Ideal.ofBits, Ideal.ieee, -EReal.coe_mul]; norm_num

/-- The batch size 1024. -/
theorem ofBits_batch : Ideal.ofBits .f32 0x44800000#32 = ((1024 : ℝ) : EReal) := by
  simp [Ideal.ofBits, Ideal.ieee, -EReal.coe_mul]; norm_num

/-- The reference's (rate · x) / 1024 is the kernel's (rate / 1024) · x, for every extended real x. -/
theorem rate_div_batch (x : EReal) :
    Ideal.div (Ideal.ofBits .f32 0x3C23D70A#32 * x) (Ideal.ofBits .f32 0x44800000#32)
      = Ideal.ofBits .f32 0x3723D70A#32 * x := by
  rw [ofBits_rate, ofBits_batch, ofBits_rateOverBatch, Ideal.div_coe (by norm_num : (1024 : ℝ) ≠ 0),
    mul_comm _ x, mul_assoc, mul_comm x, ← EReal.coe_mul]
  congr 2
  norm_num

/-- The reference's (−rate · x) / 1024 is the negative of the kernel's (rate / 1024) · x. -/
theorem negRate_div_batch (x : EReal) :
    Ideal.div (Ideal.ofBits .f32 0xBC23D70A#32 * x) (Ideal.ofBits .f32 0x44800000#32)
      = -(Ideal.ofBits .f32 0x3723D70A#32 * x) := by
  rw [ofBits_negRate, ofBits_batch, ofBits_rateOverBatch, Ideal.div_coe (by norm_num : (1024 : ℝ) ≠ 0),
    mul_comm _ x, mul_assoc, mul_comm x, ← EReal.coe_mul, ← EReal.neg_mul, ← EReal.coe_neg]
  congr 2
  norm_num

end Cert.Consts

end
-- ==== Proof.Spec.lean ====
/-
  The mathematics of one plasticity step, stated once over abstract arrays of extended reals.

  * the updated weight at (p, q):
      clip₀¹( w[p,q] + κ · Σ_b post[b,p] · preTrace[b,q] − κ · Σ_b postTrace[b,p] · pre[b,q] − 0.001 · (rate[p] − 0.1) ),
    κ the learning rate divided by the batch size;
  * the postsynaptic current at (b, p): Σ_k pre[b,k] · w'[p,k] over the 4096 presynaptic columns.

  The weight matrix is cut into 8 × 4 blocks of 512 rows by 1024 columns.  A block of the updated weights depends
  only on the matching blocks of the operands (`newW_block`), and the sum over the 4096 columns is the sum over the
  four column blocks of the sums over each block's 1024 columns (`sum_colBlocks`, `currentOut_blocks`).  The
  reference reaches the same weight by multiplying by the rate and dividing by the batch size (`update_eq`).
-/
import Idealize.ShloMosaic.PureOps.Ideal
import Idealize.ShloMosaic.Lib.ValueIdx
import proofs.«165705_j23270132810155_2_alg».proof.Proof.Consts

noncomputable section

namespace Cert.Spec

open Idealize.ShloMosaic Idealize.ShloMosaic.ValueIdx

/-- Row `p` of the `i`-th block of 512 rows. -/
abbrev rowIdx (i : Fin 8) (p : Fin 512) : Fin 4096 := ⟨512 * i.val + p.val, by omega⟩

/-- Column `q` of the `j`-th block of 1024 columns. -/
abbrev colIdx (j : Fin 4) (q : Fin 1024) : Fin 4096 := ⟨1024 * j.val + q.val, by omega⟩

/-- The updated weight at row `p`, column `q`, of a `P × Q` weight matrix `W`: spikes and traces are indexed
    (batch, neuron) over a batch of 1024, the running rate is a `P × 1` column. -/
def newW {P Q : Nat} (W : (⟨2, ![P, Q]⟩ : Shape).Idx → EReal) (post : (⟨2, ![1024, P]⟩ : Shape).Idx → EReal)
    (pre preTrace : (⟨2, ![1024, Q]⟩ : Shape).Idx → EReal) (postTrace : (⟨2, ![1024, P]⟩ : Shape).Idx → EReal)
    (rate : (⟨2, ![P, 1]⟩ : Shape).Idx → EReal) (p : Fin P) (q : Fin Q) : EReal :=
  min (Ideal.ofBits .f32 0x3F800000#32) (max (Ideal.ofBits .f32 0x00000000#32)
    (W (ix2 p q) + Ideal.ofBits .f32 0x3723D70A#32 * ∑ b : Fin 1024, post (ix2 b p) * preTrace (ix2 b q)
      - Ideal.ofBits .f32 0x3723D70A#32 * ∑ b : Fin 1024, postTrace (ix2 b p) * pre (ix2 b q)
      + Ideal.ofBits .f32 0xBA83126F#32 * (rate (ix2 p (0 : Fin 1)) - Ideal.ofBits .f32 0x3DCCCCCD#32)))

/-- Block (i, j) of the updated weights is the update of block (i, j) of the weights, computed from the row block `i`
    of the postsynaptic operands and the rate and the column block `j` of the presynaptic ones. -/
theorem newW_block (W : (⟨2, ![4096, 4096]⟩ : Shape).Idx → EReal) (post pre preTrace postTrace : (⟨2, ![1024, 4096]⟩ : Shape).Idx → EReal)
    (rate : (⟨2, ![4096, 1]⟩ : Shape).Idx → EReal) (i : Fin 8) (j : Fin 4)
    (x0 : (⟨2, ![512, 1024]⟩ : Shape).Idx → EReal) (x1 : (⟨2, ![1024, 512]⟩ : Shape).Idx → EReal)
    (x2 x3 : (⟨2, ![1024, 1024]⟩ : Shape).Idx → EReal) (x4 : (⟨2, ![1024, 512]⟩ : Shape).Idx → EReal)
    (x5 : (⟨2, ![512, 1]⟩ : Shape).Idx → EReal)
    (h0 : ∀ (p : Fin 512) (q : Fin 1024), x0 (ix2 p q) = W (ix2 (rowIdx i p) (colIdx j q)))
    (h1 : ∀ (b : Fin 1024) (p : Fin 512), x1 (ix2 b p) = post (ix2 b (rowIdx i p)))
    (h2 : ∀ (b : Fin 1024) (q : Fin 1024), x2 (ix2 b q) = pre (ix2 b (colIdx j q)))
    (h3 : ∀ (b : Fin 1024) (q : Fin 1024), x3 (ix2 b q) = preTrace (ix2 b (colIdx j q)))
    (h4 : ∀ (b : Fin 1024) (p : Fin 512), x4 (ix2 b p) = postTrace (ix2 b (rowIdx i p)))
    (h5 : ∀ (p : Fin 512), x5 (ix2 p (0 : Fin 1)) = rate (ix2 (rowIdx i p) (0 : Fin 1)))
    (p : Fin 512) (q : Fin 1024) :
    newW x0 x1 x2 x3 x4 x5 p q = newW W post pre preTrace postTrace rate (rowIdx i p) (colIdx j q) := by
  unfold newW
  simp only [h0, h1, h2, h3, h4, h5]

/-- A sum over the 4096 columns is the sum over the four column blocks of the sums over each block's 1024 columns. -/
theorem sum_colBlocks (f : Fin 4096 → EReal) :
    ∑ k : Fin 4096, f k = ∑ j : Fin 4, ∑ k : Fin 1024, f (colIdx j k) := by
  rw [← Equiv.sum_comp (finProdFinEquiv (m := 4) (n := 1024)) f, Fintype.sum_prod_type]
  refine Finset.sum_congr rfl fun j _ => Finset.sum_congr rfl fun k _ => congrArg f (Fin.ext ?_)
  show k.val + 1024 * j.val = 1024 * j.val + k.val
  omega

/-- The reference's spelling of the weight before clipping — the potentiation and depression terms multiplied by the
    rate (by its negative) and divided by the batch size — is the kernel's, with the rate over the batch size as one
    factor and the depression term subtracted. -/
theorem update_eq (w e1 e2 h : EReal) :
    w + Ideal.div (Ideal.ofBits .f32 0x3C23D70A#32 * e1) (Ideal.ofBits .f32 0x44800000#32)
        + Ideal.div (Ideal.ofBits .f32 0xBC23D70A#32 * e2) (Ideal.ofBits .f32 0x44800000#32) + h
      = w + Ideal.ofBits .f32 0x3723D70A#32 * e1 - Ideal.ofBits .f32 0x3723D70A#32 * e2 + h := by
  rw [Consts.rate_div_batch, Consts.negRate_div_batch, sub_eq_add_neg]

/-! ## The two results as whole arrays of the six arguments

  `a0` the presynaptic spikes, `a1` the postsynaptic spikes, `a2` the weights, `a3` / `a4` the pre- / postsynaptic
  traces (each decayed by one step before use), `a5` the running rate. -/

/-- A trace after one step of decay. -/
def decayed (x : (⟨2, ![1024, 4096]⟩ : Shape).Idx → EReal) : (⟨2, ![1024, 4096]⟩ : Shape).Idx → EReal :=
  fun i => x i * Ideal.ofBits .f32 0x3F7383C6#32

/-- The running rate as a column. -/
def rateCol (r : (⟨1, ![4096]⟩ : Shape).Idx → EReal) : (⟨2, ![4096, 1]⟩ : Shape).Idx → EReal :=
  fun i => r (ix1 ⟨(i 0).val, idx2_lt0 i⟩)

/-- The updated weight at row `r`, column `s`. -/
def weightsAt (a0 a1 : (⟨2, ![1024, 4096]⟩ : Shape).Idx → EReal) (a2 : (⟨2, ![4096, 4096]⟩ : Shape).Idx → EReal)
    (a3 a4 : (⟨2, ![1024, 4096]⟩ : Shape).Idx → EReal) (a5 : (⟨1, ![4096]⟩ : Shape).Idx → EReal) (r s : Fin 4096) : EReal :=
  newW a2 a1 a0 (decayed a3) (decayed a4) (rateCol a5) r s

/-- The updated weights, as an array. -/
def weightsOut (a0 a1 : (⟨2, ![1024, 4096]⟩ : Shape).Idx → EReal) (a2 : (⟨2, ![4096, 4096]⟩ : Shape).Idx → EReal)
    (a3 a4 : (⟨2, ![1024, 4096]⟩ : Shape).Idx → EReal) (a5 : (⟨1, ![4096]⟩ : Shape).Idx → EReal) :
    (⟨2, ![4096, 4096]⟩ : Shape).Idx → EReal :=
  fun i => weightsAt a0 a1 a2 a3 a4 a5 ⟨(i 0).val, idx2_lt0 i⟩ ⟨(i 1).val, idx2_lt1 i⟩

/-- The postsynaptic current, as an array: presynaptic spikes times the transposed updated weights. -/
def currentOut (a0 a1 : (⟨2, ![1024, 4096]⟩ : Shape).Idx → EReal) (a2 : (⟨2, ![4096, 4096]⟩ : Shape).Idx → EReal)
    (a3 a4 : (⟨2, ![1024, 4096]⟩ : Shape).Idx → EReal) (a5 : (⟨1, ![4096]⟩ : Shape).Idx → EReal) :
    (⟨2, ![1024, 4096]⟩ : Shape).Idx → EReal :=
  fun i => ∑ k : Fin 4096, a0 (ix2 ⟨(i 0).val, idx2_lt0 i⟩ k) * weightsAt a0 a1 a2 a3 a4 a5 ⟨(i 1).val, idx2_lt1 i⟩ k

/-- The part of the current at (b, row block i · 512 + p) that column block `j` contributes. -/
def blockTerm (a0 a1 : (⟨2, ![1024, 4096]⟩ : Shape).Idx → EReal) (a2 : (⟨2, ![4096, 4096]⟩ : Shape).Idx → EReal)
    (a3 a4 : (⟨2, ![1024, 4096]⟩ : Shape).Idx → EReal) (a5 : (⟨1, ![4096]⟩ : Shape).Idx → EReal)
    (i : Fin 8) (j : Fin 4) (b : Fin 1024) (p : Fin 512) : EReal :=
  ∑ k : Fin 1024, a0 (ix2 b (colIdx j k)) * weightsAt a0 a1 a2 a3 a4 a5 (rowIdx i p) (colIdx j k)

/-- The same with the column block a natural number (zero past the fourth block), for sums over an initial
    segment of the column blocks. -/
def blockTermN (a0 a1 : (⟨2, ![1024, 4096]⟩ : Shape).Idx → EReal) (a2 : (⟨2, ![4096, 4096]⟩ : Shape).Idx → EReal)
    (a3 a4 : (⟨2, ![1024, 4096]⟩ : Shape).Idx → EReal) (a5 : (⟨1, ![4096]⟩ : Shape).Idx → EReal)
    (i : Fin 8) (j : ℕ) (b : Fin 1024) (p : Fin 512) : EReal :=
  if h : j < 4 then blockTerm a0 a1 a2 a3 a4 a5 i ⟨j, h⟩ b p else 0

theorem blockTermN_of_lt (a0 a1 : (⟨2, ![1024, 4096]⟩ : Shape).Idx → EReal) (a2 : (⟨2, ![4096, 4096]⟩ : Shape).Idx → EReal)
    (a3 a4 : (⟨2, ![1024, 4096]⟩ : Shape).Idx → EReal) (a5 : (⟨1, ![4096]⟩ : Shape).Idx → EReal)
    (i : Fin 8) (j : Fin 4) (b : Fin 1024) (p : Fin 512) :
    blockTermN a0 a1 a2 a3 a4 a5 i j.val b p = blockTerm a0 a1 a2 a3 a4 a5 i j b p := by
  unfold blockTermN
  rw [dif_pos j.isLt]

/-- The current at (b, row block i · 512 + p) is the sum of the four column blocks' contributions. -/
theorem currentOut_blocks (a0 a1 : (⟨2, ![1024, 4096]⟩ : Shape).Idx → EReal) (a2 : (⟨2, ![4096, 4096]⟩ : Shape).Idx → EReal)
    (a3 a4 : (⟨2, ![1024, 4096]⟩ : Shape).Idx → EReal) (a5 : (⟨1, ![4096]⟩ : Shape).Idx → EReal)
    (i : Fin 8) (b : Fin 1024) (p : Fin 512) :
    currentOut a0 a1 a2 a3 a4 a5 (ix2 b (rowIdx i p)) = ∑ j ∈ Finset.range 4, blockTermN a0 a1 a2 a3 a4 a5 i j b p := by
  show ∑ k : Fin 4096, a0 (ix2 b k) * weightsAt a0 a1 a2 a3 a4 a5 (rowIdx i p) k = _
  rw [sum_colBlocks, Finset.sum_range]
  exact Finset.sum_congr rfl fun j _ => (blockTermN_of_lt a0 a1 a2 a3 a4 a5 i j b p).symm

end Cert.Spec

end
-- ==== Proof.LibKeepdims.lean ====
/-
  A per-row value kept as a column: a length-`a` vector cast to an `[a, 1]` matrix, and an `[a, 1]` matrix
  broadcast along its rows to `[a, b]`, each read at an index given by its coordinates.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims
-- ==== Proof.Blocks.lean ====
/-
  Where each grid point reads and writes.  The 32 points run over 8 row blocks (512 rows of the weight matrix) times
  4 column blocks (1024 columns), the column block moving fastest: point t works on row block t / 4 and column
  block t % 4.  Postsynaptic operands and the rate column follow the row block, presynaptic operands the column
  block; the weight block written back is block (t / 4, t % 4), the current's block is column block t / 4 of the
  [1024, 4096] result.  The arrays the region reads are the arguments, converted or decayed by the host lines before it.
-/
import proofs.«165705_j23270132810155_2_alg».proof.Proof.Gen.KernelIdeal.Frame
import proofs.«165705_j23270132810155_2_alg».proof.Proof.Spec
import proofs.«165705_j23270132810155_2_alg».proof.Proof.LibKeepdims
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-- The printed index maps, decided once over the grid. -/
theorem idx_facts : ∀ t : Fin cfg0.N,
    win0_0.index t (0 : Fin 2) = t.val / 4 ∧ win0_0.index t (1 : Fin 2) = t.val % 4
    ∧ win0_1.index t (0 : Fin 2) = 0 ∧ win0_1.index t (1 : Fin 2) = t.val / 4
    ∧ win0_2.index t (0 : Fin 2) = 0 ∧ win0_2.index t (1 : Fin 2) = t.val % 4
    ∧ win0_3.index t (0 : Fin 2) = 0 ∧ win0_3.index t (1 : Fin 2) = t.val % 4
    ∧ win0_4.index t (0 : Fin 2) = 0 ∧ win0_4.index t (1 : Fin 2) = t.val / 4
    ∧ win0_5.index t (0 : Fin 2) = t.val / 4 ∧ win0_5.index t (1 : Fin 2) = 0
    ∧ win0_6.index t (0 : Fin 2) = t.val / 4 ∧ win0_6.index t (1 : Fin 2) = t.val % 4
    ∧ win0_7.index t (0 : Fin 2) = 0 ∧ win0_7.index t (1 : Fin 2) = t.val / 4 :=
  (by decide +kernel : ∀ t : Fin grid0.N, _)

theorem lt32 (t : Fin cfg0.N) : t.val < 32 := lt_of_lt_of_eq t.isLt (show cfg0.N = 32 from N_0)

/-- The row block a grid point works on. -/
def rowBlk (t : Fin cfg0.N) : Fin 8 := ⟨t.val / 4, by have := lt32 t; omega⟩
/-- The column block a grid point works on. -/
def colBlk (t : Fin cfg0.N) : Fin 4 := ⟨t.val % 4, Nat.mod_lt _ (by decide)⟩

/-! ## The arrays as the region finds them -/

theorem V_arg2_apply (c : Dev nD) (i : S4096x4096.Idx) :
    V m c main_arg2 i = m ((c : Thread nD τ).loc main_arg2) i := congrFun (V_main_arg2 m c) i

theorem V_v5 (c : Dev nD) : V m c main_v5 = (truncf (F := Ideal) .bf16 (m ((c : Thread nD τ).loc main_arg1)) bitsLt_bf16_f32 : FVec Ideal S1024x4096 .bf16) := by
  show StableHlo.after hostOps0 (fun b => m (c, b)) (Proc.devRef .tc main_v5) = _
  after_results
  try rfl

theorem V_v6 (c : Dev nD) : V m c main_v6 = (truncf (F := Ideal) .bf16 (m ((c : Thread nD τ).loc main_arg0)) bitsLt_bf16_f32 : FVec Ideal S1024x4096 .bf16) := by
  show StableHlo.after hostOps0 (fun b => m (c, b)) (Proc.devRef .tc main_v6) = _
  after_results
  try rfl

theorem V_v7 (c : Dev nD) : V m c main_v7 = (truncf (F := Ideal) .bf16 (mulf (m ((c : Thread nD τ).loc main_arg3)) (broadcastInDim S1024x4096 ![] bcast_S_S1024x4096 (constant (F := Ideal) S_ .f32 0x3F7383C6#32))) bitsLt_bf16_f32 : FVec Ideal S1024x4096 .bf16) := by
  show StableHlo.after hostOps0 (fun b => m (c, b)) (Proc.devRef .tc main_v7) = _
  after_results
  try rfl

theorem V_v8 (c : Dev nD) : V m c main_v8 = (truncf (F := Ideal) .bf16 (mulf (m ((c : Thread nD τ).loc main_arg4)) (broadcastInDim S1024x4096 ![] bcast_S_S1024x4096 (constant (F := Ideal) S_ .f32 0x3F7383C6#32))) bitsLt_bf16_f32 : FVec Ideal S1024x4096 .bf16) := by
  show StableHlo.after hostOps0 (fun b => m (c, b)) (Proc.devRef .tc main_v8) = _
  after_results
  try rfl

theorem V_v0 (c : Dev nD) : V m c main_v0 = (shapeCast S4096x1 (m ((c : Thread nD τ).loc main_arg5)) shapeCasts_S4096_S4096x1 : FVec Ideal S4096x1 .f32) := by
  show StableHlo.after hostOps0 (fun b => m (c, b)) (Proc.devRef .tc main_v0) = _
  after_results
  try rfl

/-- A scalar constant broadcast to every index. -/
theorem splat_apply (w : BitVec 32) (i : S1024x4096.Idx) :
    broadcastInDim S1024x4096 ![] bcast_S_S1024x4096 (constant (F := Ideal) S_ .f32 w) i = Ideal.ofBits .f32 w :=
  broadcastInDim_apply _ bcast_S_S1024x4096 _ i ix0 (fun a => a.elim0)

theorem V_v5_apply (c : Dev nD) (i : S1024x4096.Idx) :
    (V m c main_v5 : FVec Ideal S1024x4096 .bf16) i = m ((c : Thread nD τ).loc main_arg1) i := by
  rw [V_v5]; rfl

theorem V_v6_apply (c : Dev nD) (i : S1024x4096.Idx) :
    (V m c main_v6 : FVec Ideal S1024x4096 .bf16) i = m ((c : Thread nD τ).loc main_arg0) i := by
  rw [V_v6]; rfl

theorem V_v7_apply (c : Dev nD) (i : S1024x4096.Idx) :
    (V m c main_v7 : FVec Ideal S1024x4096 .bf16) i = Spec.decayed (m ((c : Thread nD τ).loc main_arg3)) i := by
  rw [V_v7]
  exact congrArg (FloatOps.mulf (F := Ideal) (φ := .f32) (m ((c : Thread nD τ).loc main_arg3) i)) (splat_apply _ i)

theorem V_v8_apply (c : Dev nD) (i : S1024x4096.Idx) :
    (V m c main_v8 : FVec Ideal S1024x4096 .bf16) i = Spec.decayed (m ((c : Thread nD τ).loc main_arg4)) i := by
  rw [V_v8]
  exact congrArg (FloatOps.mulf (F := Ideal) (φ := .f32) (m ((c : Thread nD τ).loc main_arg4) i)) (splat_apply _ i)

theorem V_v0_apply (c : Dev nD) (r : Fin 4096) :
    (V m c main_v0 : FVec Ideal S4096x1 .f32) (ix2 r (0 : Fin 1)) = Spec.rateCol (m ((c : Thread nD τ).loc main_arg5)) (ix2 r (0 : Fin 1)) := by
  rw [V_v0]
  exact Keepdims.shapeCast_a_a1_apply _ _ r 0

/-! ## The input blocks of a point, read off the arguments -/

/-- The weight block of a point is block (row block, column block) of the weights. -/
theorem blk0 (c : Dev nD) (t : Fin cfg0.N) (p : Fin 512) (q : Fin 1024) :
    (iblk m c 0 t : Vec Ideal S512x1024 .f32) (ix2 p q) = m ((c : Thread nD τ).loc main_arg2) (ix2 (Spec.rowIdx (rowBlk t) p) (Spec.colIdx (colBlk t) q)) := by
  obtain ⟨e0_0, e0_1, e1_0, e1_1, e2_0, e2_1, e3_0, e3_1, e4_0, e4_1, e5_0, e5_1, e6_0, e6_1, e7_0, e7_1⟩ := idx_facts t
  unfold iblk
  rw [View.read_apply]
  show V m c main_arg2 (((cfg0.win 0).blk t).view.emb (ix2 p q)) = _
  refine (congrArg (V m c main_arg2) (funext fun d => Fin.ext ?_)).trans (V_arg2_apply m c (ix2 (Spec.rowIdx (rowBlk t) p) (Spec.colIdx (colBlk t) q)))
  match d with
  | ⟨0, _⟩ => show win0_0.index t (0 : Fin 2) * 512 + 1 * p.val = 512 * (t.val / 4) + p.val; rw [e0_0]; omega
  | ⟨1, _⟩ => show win0_0.index t (1 : Fin 2) * 1024 + 1 * q.val = 1024 * (t.val % 4) + q.val; rw [e0_1]; omega

/-- The postsynaptic spikes a point reads: the columns of its row block. -/
theorem blk1 (c : Dev nD) (t : Fin cfg0.N) (b : Fin 1024) (p : Fin 512) :
    (iblk m c 1 t : Vec Ideal S1024x512 .bf16) (ix2 b p) = m ((c : Thread nD τ).loc main_arg1) (ix2 b (Spec.rowIdx (rowBlk t) p)) := by
  obtain ⟨e0_0, e0_1, e1_0, e1_1, e2_0, e2_1, e3_0, e3_1, e4_0, e4_1, e5_0, e5_1, e6_0, e6_1, e7_0, e7_1⟩ := idx_facts t
  unfold iblk
  rw [View.read_apply]
  show V m c main_v5 (((cfg0.win 1).blk t).view.emb (ix2 b p)) = _
  refine (congrArg (V m c main_v5) (funext fun d => Fin.ext ?_)).trans (V_v5_apply m c (ix2 b (Spec.rowIdx (rowBlk t) p)))
  match d with
  | ⟨0, _⟩ => show win0_1.index t (0 : Fin 2) * 1024 + 1 * b.val = b.val; rw [e1_0]; omega
  | ⟨1, _⟩ => show win0_1.index t (1 : Fin 2) * 512 + 1 * p.val = 512 * (t.val / 4) + p.val; rw [e1_1]; omega

/-- The presynaptic spikes a point reads: the columns of its column block. -/
theorem blk2 (c : Dev nD) (t : Fin cfg0.N) (b : Fin 1024) (q : Fin 1024) :
    (iblk m c 2 t : Vec Ideal S1024x1024 .bf16) (ix2 b q) = m ((c : Thread nD τ).loc main_arg0) (ix2 b (Spec.colIdx (colBlk t) q)) := by
  obtain ⟨e0_0, e0_1, e1_0, e1_1, e2_0, e2_1, e3_0, e3_1, e4_0, e4_1, e5_0, e5_1, e6_0, e6_1, e7_0, e7_1⟩ := idx_facts t
  unfold iblk
  rw [View.read_apply]
  show V m c main_v6 (((cfg0.win 2).blk t).view.emb (ix2 b q)) = _
  refine (congrArg (V m c main_v6) (funext fun d => Fin.ext ?_)).trans (V_v6_apply m c (ix2 b (Spec.colIdx (colBlk t) q)))
  match d with
  | ⟨0, _⟩ => show win0_2.index t (0 : Fin 2) * 1024 + 1 * b.val = b.val; rw [e2_0]; omega
  | ⟨1, _⟩ => show win0_2.index t (1 : Fin 2) * 1024 + 1 * q.val = 1024 * (t.val % 4) + q.val; rw [e2_1]; omega

/-- The decayed presynaptic trace a point reads: the columns of its column block. -/
theorem blk3 (c : Dev nD) (t : Fin cfg0.N) (b : Fin 1024) (q : Fin 1024) :
    (iblk m c 3 t : Vec Ideal S1024x1024 .bf16) (ix2 b q) = Spec.decayed (m ((c : Thread nD τ).loc main_arg3)) (ix2 b (Spec.colIdx (colBlk t) q)) := by
  obtain ⟨e0_0, e0_1, e1_0, e1_1, e2_0, e2_1, e3_0, e3_1, e4_0, e4_1, e5_0, e5_1, e6_0, e6_1, e7_0, e7_1⟩ := idx_facts t
  unfold iblk
  rw [View.read_apply]
  show V m c main_v7 (((cfg0.win 3).blk t).view.emb (ix2 b q)) = _
  refine (congrArg (V m c main_v7) (funext fun d => Fin.ext ?_)).trans (V_v7_apply m c (ix2 b (Spec.colIdx (colBlk t) q)))
  match d with
  | ⟨0, _⟩ => show win0_3.index t (0 : Fin 2) * 1024 + 1 * b.val = b.val; rw [e3_0]; omega
  | ⟨1, _⟩ => show win0_3.index t (1 : Fin 2) * 1024 + 1 * q.val = 1024 * (t.val % 4) + q.val; rw [e3_1]; omega

/-- The decayed postsynaptic trace a point reads: the columns of its row block. -/
theorem blk4 (c : Dev nD) (t : Fin cfg0.N) (b : Fin 1024) (p : Fin 512) :
    (iblk m c 4 t : Vec Ideal S1024x512 .bf16) (ix2 b p) = Spec.decayed (m ((c : Thread nD τ).loc main_arg4)) (ix2 b (Spec.rowIdx (rowBlk t) p)) := by
  obtain ⟨e0_0, e0_1, e1_0, e1_1, e2_0, e2_1, e3_0, e3_1, e4_0, e4_1, e5_0, e5_1, e6_0, e6_1, e7_0, e7_1⟩ := idx_facts t
  unfold iblk
  rw [View.read_apply]
  show V m c main_v8 (((cfg0.win 4).blk t).view.emb (ix2 b p)) = _
  refine (congrArg (V m c main_v8) (funext fun d => Fin.ext ?_)).trans (V_v8_apply m c (ix2 b (Spec.rowIdx (rowBlk t) p)))
  match d with
  | ⟨0, _⟩ => show win0_4.index t (0 : Fin 2) * 1024 + 1 * b.val = b.val; rw [e4_0]; omega
  | ⟨1, _⟩ => show win0_4.index t (1 : Fin 2) * 512 + 1 * p.val = 512 * (t.val / 4) + p.val; rw [e4_1]; omega

/-- The rate column a point reads: the rows of its row block. -/
theorem blk5 (c : Dev nD) (t : Fin cfg0.N) (p : Fin 512) :
    (iblk m c 5 t : Vec Ideal S512x1 .f32) (ix2 p (0 : Fin 1)) = Spec.rateCol (m ((c : Thread nD τ).loc main_arg5)) (ix2 (Spec.rowIdx (rowBlk t) p) (0 : Fin 1)) := by
  obtain ⟨e0_0, e0_1, e1_0, e1_1, e2_0, e2_1, e3_0, e3_1, e4_0, e4_1, e5_0, e5_1, e6_0, e6_1, e7_0, e7_1⟩ := idx_facts t
  unfold iblk
  rw [View.read_apply]
  show V m c main_v0 (((cfg0.win 5).blk t).view.emb (ix2 p (0 : Fin 1))) = _
  refine (congrArg (V m c main_v0) (funext fun d => Fin.ext ?_)).trans (V_v0_apply m c (Spec.rowIdx (rowBlk t) p))
  match d with
  | ⟨0, _⟩ => show win0_5.index t (0 : Fin 2) * 512 + 1 * p.val = 512 * (t.val / 4) + p.val; rw [e5_0]; omega
  | ⟨1, _⟩ => show win0_5.index t (1 : Fin 2) * 1 + 1 * 0 = 0; rw [e5_1]

/-! ## Where the two output blocks of a point sit in their arrays -/

/-- Entry (p, q) of the weight block a point writes back is entry (row block · 512 + p, column block · 1024 + q). -/
theorem emb6 (t : Fin cfg0.N) (p : Fin 512) (q : Fin 1024) :
    ((cfg0.win 6).blk t).view.emb (ix2 p q) = (ix2 (Spec.rowIdx (rowBlk t) p) (Spec.colIdx (colBlk t) q) : S4096x4096.Idx) := by
  obtain ⟨e0_0, e0_1, e1_0, e1_1, e2_0, e2_1, e3_0, e3_1, e4_0, e4_1, e5_0, e5_1, e6_0, e6_1, e7_0, e7_1⟩ := idx_facts t
  funext d; apply Fin.ext
  match d with
  | ⟨0, _⟩ => show win0_6.index t (0 : Fin 2) * 512 + 1 * p.val = 512 * (t.val / 4) + p.val; rw [e6_0]; omega
  | ⟨1, _⟩ => show win0_6.index t (1 : Fin 2) * 1024 + 1 * q.val = 1024 * (t.val % 4) + q.val; rw [e6_1]; omega

/-- Entry (b, p) of the current block a point writes back is entry (b, row block · 512 + p). -/
theorem emb7 (t : Fin cfg0.N) (b : Fin 1024) (p : Fin 512) :
    ((cfg0.win 7).blk t).view.emb (ix2 b p) = (ix2 b (Spec.rowIdx (rowBlk t) p) : S1024x4096.Idx) := by
  obtain ⟨e0_0, e0_1, e1_0, e1_1, e2_0, e2_1, e3_0, e3_1, e4_0, e4_1, e5_0, e5_1, e6_0, e6_1, e7_0, e7_1⟩ := idx_facts t
  funext d; apply Fin.ext
  match d with
  | ⟨0, _⟩ => show win0_7.index t (0 : Fin 2) * 1024 + 1 * b.val = b.val; rw [e7_0]; omega
  | ⟨1, _⟩ => show win0_7.index t (1 : Fin 2) * 512 + 1 * p.val = 512 * (t.val / 4) + p.val; rw [e7_1]; omega

end Cert.KernelIdeal.Blocks

end
-- ==== Proof.Pieces.lean ====
import proofs.«165705_j23270132810155_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-! What each of the three control cases of the body leaves behind, read back as values of the body's loads:
    the weight block is the same expression in every case; the carried partial product is the matrix product of
    this column block added to what the point before left (to the zero block at the first column block); and at
    the last column block the output block is a copy of that carried value. -/

/-- First column block: the weight block the body stores. -/
theorem weights_first (c : Dev nD) (i : grid0.Coords) (arg2 : Memref sig .tc .vmem S512x1024 .f32) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x512 .bf16) (harg6 : arg6.IsWhole) (arg7 : Memref sig .tc .vmem S512x1 .f32) (harg7 : arg7.IsWhole) (arg8 : Memref sig .tc .vmem S512x1024 .f32) (harg8 : arg8.IsWhole) (arg9 : Memref sig .tc .vmem S1024x512 .f32) (harg9 : arg9.IsWhole) (arg10 : Memref sig .tc .vmem S1024x512 .f32) (harg10 : arg10.IsWhole) (hc0 : cond0_0 i) (hc1 : ¬cond0_1 i) (x0 : Vec F S512x1024 .f32) (x1 : Vec F S1024x512 .bf16) (x2 : Vec F S1024x1024 .bf16) (x3 : Vec F S1024x1024 .bf16) (x4 : Vec F S1024x512 .bf16) (x5 : Vec F S512x1 .f32) :
    out0_A_6 c i arg2 harg2 arg3 harg3 arg4 harg4 arg5 harg5 arg6 harg6 arg7 harg7 arg8 harg8 arg9 harg9 arg10 harg10 hc0 hc1 x0 x1 x2 x3 x4 x5 = k0_pay4 x1 x2 x3 x4 x5 x0 := by
  unfold out0_A_6
  rw [View.read_writes_eq_canon _ _ _ (cover0_A_6 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_unit_zero hz]
  simp only [View.readAt_eq_ld, harg2.read_unread, harg3.read_unread, harg4.read_unread, harg5.read_unread, harg6.read_unread, harg7.read_unread, View.ld_unit_zero (S := S1024x512) hz, View.ld_unit_zero (S := S1024x1024) hz, View.ld_unit_zero (S := S512x1) hz, View.ld_unit_zero (S := S512x1024) hz]

/-- First column block: the carried partial product starts from the zero block. -/
theorem carried_first (c : Dev nD) (i : grid0.Coords) (arg2 : Memref sig .tc .vmem S512x1024 .f32) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x512 .bf16) (harg6 : arg6.IsWhole) (arg7 : Memref sig .tc .vmem S512x1 .f32) (harg7 : arg7.IsWhole) (arg8 : Memref sig .tc .vmem S512x1024 .f32) (harg8 : arg8.IsWhole) (arg9 : Memref sig .tc .vmem S1024x512 .f32) (harg9 : arg9.IsWhole) (arg10 : Memref sig .tc .vmem S1024x512 .f32) (harg10 : arg10.IsWhole) (hc0 : cond0_0 i) (hc1 : ¬cond0_1 i) (x0 : Vec F S512x1024 .f32) (x1 : Vec F S1024x512 .bf16) (x2 : Vec F S1024x1024 .bf16) (x3 : Vec F S1024x1024 .bf16) (x4 : Vec F S1024x512 .bf16) (x5 : Vec F S512x1 .f32) :
    sout0_A_0 c i arg2 harg2 arg3 harg3 arg4 harg4 arg5 harg5 arg6 harg6 arg7 harg7 arg8 harg8 arg9 harg9 arg10 harg10 hc0 hc1 x0 x1 x2 x3 x4 x5
      = k0_pay1 (k0_pay3 x2) (k0_pay4 x1 x2 x3 x4 x5 x0) k0_pay2 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x512) hz, View.readCov_unit_zero (S := S1024x512) _ hz]
  simp only [View.readAt_eq_ld, harg2.read_unread, harg3.read_unread, harg4.read_unread, harg5.read_unread, harg6.read_unread, harg7.read_unread, View.ld_unit_zero (S := S1024x512) hz, View.ld_unit_zero (S := S1024x1024) hz, View.ld_unit_zero (S := S512x1) hz, View.ld_unit_zero (S := S512x1024) hz]

/-- A middle column block: the weight block. -/
theorem weights_middle (c : Dev nD) (i : grid0.Coords) (arg2 : Memref sig .tc .vmem S512x1024 .f32) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x512 .bf16) (harg6 : arg6.IsWhole) (arg7 : Memref sig .tc .vmem S512x1 .f32) (harg7 : arg7.IsWhole) (arg8 : Memref sig .tc .vmem S512x1024 .f32) (harg8 : arg8.IsWhole) (arg9 : Memref sig .tc .vmem S1024x512 .f32) (harg9 : arg9.IsWhole) (arg10 : Memref sig .tc .vmem S1024x512 .f32) (harg10 : arg10.IsWhole) (hc0 : ¬cond0_0 i) (hc1 : ¬cond0_1 i) (x0 : Vec F S512x1024 .f32) (x1 : Vec F S1024x512 .bf16) (x2 : Vec F S1024x1024 .bf16) (x3 : Vec F S1024x1024 .bf16) (x4 : Vec F S1024x512 .bf16) (x5 : Vec F S512x1 .f32) (xs0 : Vec F S1024x512 .f32) :
    out0_B_6 c i arg2 harg2 arg3 harg3 arg4 harg4 arg5 harg5 arg6 harg6 arg7 harg7 arg8 harg8 arg9 harg9 arg10 harg10 hc0 hc1 x0 x1 x2 x3 x4 x5 xs0 = k0_pay4 x1 x2 x3 x4 x5 x0 := by
  unfold out0_B_6
  rw [View.read_writes_eq_canon _ _ _ (cover0_B_6 c i arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, View.ld_unit_zero (S := S1024x512) hz, View.ld_unit_zero (S := S1024x1024) hz, View.ld_unit_zero (S := S512x1) hz, View.ld_unit_zero (S := S512x1024) hz]

/-- A middle column block: the carried partial product grows by this block's product. -/
theorem carried_middle (c : Dev nD) (i : grid0.Coords) (arg2 : Memref sig .tc .vmem S512x1024 .f32) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x512 .bf16) (harg6 : arg6.IsWhole) (arg7 : Memref sig .tc .vmem S512x1 .f32) (harg7 : arg7.IsWhole) (arg8 : Memref sig .tc .vmem S512x1024 .f32) (harg8 : arg8.IsWhole) (arg9 : Memref sig .tc .vmem S1024x512 .f32) (harg9 : arg9.IsWhole) (arg10 : Memref sig .tc .vmem S1024x512 .f32) (harg10 : arg10.IsWhole) (hc0 : ¬cond0_0 i) (hc1 : ¬cond0_1 i) (x0 : Vec F S512x1024 .f32) (x1 : Vec F S1024x512 .bf16) (x2 : Vec F S1024x1024 .bf16) (x3 : Vec F S1024x1024 .bf16) (x4 : Vec F S1024x512 .bf16) (x5 : Vec F S512x1 .f32) (xs0 : Vec F S1024x512 .f32) :
    sout0_B_0 c i arg2 harg2 arg3 harg3 arg4 harg4 arg5 harg5 arg6 harg6 arg7 harg7 arg8 harg8 arg9 harg9 arg10 harg10 hc0 hc1 x0 x1 x2 x3 x4 x5 xs0
      = k0_pay1 (k0_pay3 x2) (k0_pay4 x1 x2 x3 x4 x5 x0) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg10.read_unread, View.ld_unit_zero (S := S1024x512) hz, View.ld_unit_zero (S := S1024x1024) hz, View.ld_unit_zero (S := S512x1) hz, View.ld_unit_zero (S := S512x1024) hz]

/-- Last column block: the weight block. -/
theorem weights_last (c : Dev nD) (i : grid0.Coords) (arg2 : Memref sig .tc .vmem S512x1024 .f32) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x512 .bf16) (harg6 : arg6.IsWhole) (arg7 : Memref sig .tc .vmem S512x1 .f32) (harg7 : arg7.IsWhole) (arg8 : Memref sig .tc .vmem S512x1024 .f32) (harg8 : arg8.IsWhole) (arg9 : Memref sig .tc .vmem S1024x512 .f32) (harg9 : arg9.IsWhole) (arg10 : Memref sig .tc .vmem S1024x512 .f32) (harg10 : arg10.IsWhole) (hc0 : ¬cond0_0 i) (hc1 : cond0_1 i) (x0 : Vec F S512x1024 .f32) (x1 : Vec F S1024x512 .bf16) (x2 : Vec F S1024x1024 .bf16) (x3 : Vec F S1024x1024 .bf16) (x4 : Vec F S1024x512 .bf16) (x5 : Vec F S512x1 .f32) (xs0 : Vec F S1024x512 .f32) :
    out0_C_6 c i arg2 harg2 arg3 harg3 arg4 harg4 arg5 harg5 arg6 harg6 arg7 harg7 arg8 harg8 arg9 harg9 arg10 harg10 hc0 hc1 x0 x1 x2 x3 x4 x5 xs0 = k0_pay4 x1 x2 x3 x4 x5 x0 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, View.ld_unit_zero (S := S1024x512) hz, View.ld_unit_zero (S := S1024x1024) hz, View.ld_unit_zero (S := S512x1) hz, View.ld_unit_zero (S := S512x1024) hz]

/-- Last column block: the carried partial product. -/
theorem carried_last (c : Dev nD) (i : grid0.Coords) (arg2 : Memref sig .tc .vmem S512x1024 .f32) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x512 .bf16) (harg6 : arg6.IsWhole) (arg7 : Memref sig .tc .vmem S512x1 .f32) (harg7 : arg7.IsWhole) (arg8 : Memref sig .tc .vmem S512x1024 .f32) (harg8 : arg8.IsWhole) (arg9 : Memref sig .tc .vmem S1024x512 .f32) (harg9 : arg9.IsWhole) (arg10 : Memref sig .tc .vmem S1024x512 .f32) (harg10 : arg10.IsWhole) (hc0 : ¬cond0_0 i) (hc1 : cond0_1 i) (x0 : Vec F S512x1024 .f32) (x1 : Vec F S1024x512 .bf16) (x2 : Vec F S1024x1024 .bf16) (x3 : Vec F S1024x1024 .bf16) (x4 : Vec F S1024x512 .bf16) (x5 : Vec F S512x1 .f32) (xs0 : Vec F S1024x512 .f32) :
    sout0_C_0 c i arg2 harg2 arg3 harg3 arg4 harg4 arg5 harg5 arg6 harg6 arg7 harg7 arg8 harg8 arg9 harg9 arg10 harg10 hc0 hc1 x0 x1 x2 x3 x4 x5 xs0
      = k0_pay1 (k0_pay3 x2) (k0_pay4 x1 x2 x3 x4 x5 x0) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg10.read_unread, View.ld_unit_zero (S := S1024x512) hz, View.ld_unit_zero (S := S1024x1024) hz, View.ld_unit_zero (S := S512x1) hz, View.ld_unit_zero (S := S512x1024) hz]

/-- Last column block: the output block is a copy of the carried partial product. -/
theorem output_last (c : Dev nD) (i : grid0.Coords) (arg2 : Memref sig .tc .vmem S512x1024 .f32) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x512 .bf16) (harg6 : arg6.IsWhole) (arg7 : Memref sig .tc .vmem S512x1 .f32) (harg7 : arg7.IsWhole) (arg8 : Memref sig .tc .vmem S512x1024 .f32) (harg8 : arg8.IsWhole) (arg9 : Memref sig .tc .vmem S1024x512 .f32) (harg9 : arg9.IsWhole) (arg10 : Memref sig .tc .vmem S1024x512 .f32) (harg10 : arg10.IsWhole) (hc0 : ¬cond0_0 i) (hc1 : cond0_1 i) (x0 : Vec F S512x1024 .f32) (x1 : Vec F S1024x512 .bf16) (x2 : Vec F S1024x1024 .bf16) (x3 : Vec F S1024x1024 .bf16) (x4 : Vec F S1024x512 .bf16) (x5 : Vec F S512x1 .f32) (xs0 : Vec F S1024x512 .f32) :
    out0_C_7 c i arg2 harg2 arg3 harg3 arg4 harg4 arg5 harg5 arg6 harg6 arg7 harg7 arg8 harg8 arg9 harg9 arg10 harg10 hc0 hc1 x0 x1 x2 x3 x4 x5 xs0
      = k0_pay1 (k0_pay3 x2) (k0_pay4 x1 x2 x3 x4 x5 x0) xs0 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz, View.readCov_unit_zero (S := S1024x512) _ hz]
  simp only [View.readAt_eq_ld, harg2.read_unread, harg3.read_unread, harg4.read_unread, harg5.read_unread, harg6.read_unread, harg7.read_unread, harg10.read_unread, View.ld_unit_zero (S := S1024x512) hz, View.ld_unit_zero (S := S1024x1024) hz, View.ld_unit_zero (S := S512x1) hz, View.ld_unit_zero (S := S512x1024) hz]

end Cert.KernelIdeal.Pieces
end
-- ==== Proof.Payload.lean ====
/-
  The body's arithmetic read at an index, on the extended reals.

  * Both matrix products of the weight update contract the batch axis (axis 0 of both operands): at (p, q) the
    product of a 1024 × 512 and a 1024 × 1024 block is Σ_b A[b,p] · B[b,q].
  * The product that feeds the current contracts the column axis (axis 1 of both operands): at (b, p) the product
    of the 1024 × 1024 presynaptic block and the 512 × 1024 weight block is Σ_k A[b,k] · N[p,k].
  * With these, the stored weight block is `Spec.newW` of the loaded blocks, and the carried partial product is
    what it was plus the product of this column block; the reset stores zeros.
-/
import proofs.«165705_j23270132810155_2_alg».proof.Proof.Gen.KernelIdeal.Skeleton
import proofs.«165705_j23270132810155_2_alg».proof.Proof.Spec
import proofs.«165705_j23270132810155_2_alg».proof.Proof.LibKeepdims
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- Contracting the batch axis of both operands into a zero accumulator: at (p, q), Σ_b A[b,p] · B[b,q]. -/
theorem matmul_batch_apply (A : FVec Ideal S1024x512 .bf16) (B : FVec Ideal S1024x1024 .bf16) (p : Fin 512) (q : Fin 1024) :
    matmul dot_S1024x512_S1024x1024_S512x1024_0_0_1_1_n_n none A B (constant (F := Ideal) S512x1024 .f32 0x00000000#32) (ix2 p q)
      = ∑ b : Fin 1024, A (ix2 b p) * B (ix2 b q) := by
  show FloatOps.matmul dot_S1024x512_S1024x1024_S512x1024_0_0_1_1_n_n none A B (constant (F := Ideal) S512x1024 .f32 0x00000000#32) (ix2 p q) = _
  rw [Ideal.matmul_constant_zero_apply, ← Equiv.sum_comp (contrEquiv1 dot_S1024x512_S1024x1024_S512x1024_0_0_1_1_n_n 1024 rfl rfl).symm]
  refine Finset.sum_congr rfl fun k _ => ?_
  have hk := contrEquiv1_symm_val dot_S1024x512_S1024x1024_S512x1024_0_0_1_1_n_n 1024 rfl rfl k
  have el : dot_S1024x512_S1024x1024_S512x1024_0_0_1_1_n_n.lhsIdx (ix2 p q) ((contrEquiv1 dot_S1024x512_S1024x1024_S512x1024_0_0_1_1_n_n 1024 rfl rfl).symm k) = ix2 k p := funext fun a => Fin.ext (by
    match a with
    | ⟨0, _⟩ => exact (dot_S1024x512_S1024x1024_S512x1024_0_0_1_1_n_n.lhsIdx_val_of_single rfl _ _).trans hk
    | ⟨1, _⟩ =>
      show (dot_S1024x512_S1024x1024_S512x1024_0_0_1_1_n_n.lhsIdx (ix2 p q) ((contrEquiv1 dot_S1024x512_S1024x1024_S512x1024_0_0_1_1_n_n 1024 rfl rfl).symm k) 1).val = p.val
      unfold DotDims.lhsIdx
      rw [dif_neg (show ¬(1 : Fin S1024x512.rank) ∈ dot_S1024x512_S1024x1024_S512x1024_0_0_1_1_n_n.lhsBatch by decide), dif_pos (show (1 : Fin S1024x512.rank) ∈ dot_S1024x512_S1024x1024_S512x1024_0_0_1_1_n_n.lhsNonContracting by decide)]
      rfl)
  have er : dot_S1024x512_S1024x1024_S512x1024_0_0_1_1_n_n.rhsIdx (ix2 p q) ((contrEquiv1 dot_S1024x512_S1024x1024_S512x1024_0_0_1_1_n_n 1024 rfl rfl).symm k) = ix2 k q := funext fun a => Fin.ext (by
    match a with
    | ⟨0, _⟩ => exact (dot_S1024x512_S1024x1024_S512x1024_0_0_1_1_n_n.rhsIdx_val_of_single rfl _ _).trans hk
    | ⟨1, _⟩ =>
      show (dot_S1024x512_S1024x1024_S512x1024_0_0_1_1_n_n.rhsIdx (ix2 p q) ((contrEquiv1 dot_S1024x512_S1024x1024_S512x1024_0_0_1_1_n_n 1024 rfl rfl).symm k) 1).val = q.val
      unfold DotDims.rhsIdx
      rw [dif_neg (show ¬(1 : Fin S1024x1024.rank) ∈ dot_S1024x512_S1024x1024_S512x1024_0_0_1_1_n_n.rhsBatch by decide), dif_pos (show (1 : Fin S1024x1024.rank) ∈ dot_S1024x512_S1024x1024_S512x1024_0_0_1_1_n_n.rhsNonContracting by decide)]
      rfl)
  rw [el, er]

/-- Contracting the column axis of both operands into a zero accumulator: at (b, p), Σ_k A[b,k] · N[p,k]. -/
theorem matmul_cols_apply (A : FVec Ideal S1024x1024 .bf16) (N : FVec Ideal S512x1024 .bf16) (b : Fin 1024) (p : Fin 512) :
    matmul dot_S1024x1024_S512x1024_S1024x512_1_1_0_0_n_n none A N (constant (F := Ideal) S1024x512 .f32 0x00000000#32) (ix2 b p)
      = ∑ k : Fin 1024, A (ix2 b k) * N (ix2 p k) := by
  show FloatOps.matmul dot_S1024x1024_S512x1024_S1024x512_1_1_0_0_n_n none A N (constant (F := Ideal) S1024x512 .f32 0x00000000#32) (ix2 b p) = _
  rw [Ideal.matmul_constant_zero_apply, ← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 b p) ((contrEquiv1 dot_S1024x1024_S512x1024_S1024x512_1_1_0_0_n_n 1024 rfl rfl).symm k) = ix2 b k := funext fun a => Fin.ext (by
    match a with
    | ⟨0, _⟩ =>
      show (dot_S1024x1024_S512x1024_S1024x512_1_1_0_0_n_n.lhsIdx (ix2 b p) ((contrEquiv1 dot_S1024x1024_S512x1024_S1024x512_1_1_0_0_n_n 1024 rfl rfl).symm k) 0).val = b.val
      unfold DotDims.lhsIdx
      rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
      rfl
    | ⟨1, _⟩ => exact (dot_S1024x1024_S512x1024_S1024x512_1_1_0_0_n_n.lhsIdx_val_of_single rfl _ _).trans hk)
  have er : dot_S1024x1024_S512x1024_S1024x512_1_1_0_0_n_n.rhsIdx (ix2 b p) ((contrEquiv1 dot_S1024x1024_S512x1024_S1024x512_1_1_0_0_n_n 1024 rfl rfl).symm k) = ix2 p k := funext fun a => Fin.ext (by
    match a with
    | ⟨0, _⟩ =>
      show (dot_S1024x1024_S512x1024_S1024x512_1_1_0_0_n_n.rhsIdx (ix2 b p) ((contrEquiv1 dot_S1024x1024_S512x1024_S1024x512_1_1_0_0_n_n 1024 rfl rfl).symm k) 0).val = p.val
      unfold DotDims.rhsIdx
      rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
      rfl
    | ⟨1, _⟩ => exact (dot_S1024x1024_S512x1024_S1024x512_1_1_0_0_n_n.rhsIdx_val_of_single rfl _ _).trans hk)
  rw [el, er]

/-- The presynaptic block as the body passes it on: unchanged. -/
theorem pre_eq {F : FTy → Type} [FloatOps F] (x2 : Vec F S1024x1024 .bf16) : k0_pay3 x2 = x2 := by
  unfold k0_pay3
  exact shapeCast_self _ _

/-- The zero block the reset stores. -/
theorem zero_apply (b : Fin 1024) (p : Fin 512) : k0_pay2 (F := Ideal) (ix2 b p) = 0 := by
  unfold k0_pay2
  rw [shapeCast_self]
  exact Ideal.ofBits_zero_f32

/-- The weight block the body stores is the update of the loaded blocks. -/
theorem weights_apply (x1 : Vec Ideal S1024x512 .bf16) (x2 x3 : Vec Ideal S1024x1024 .bf16) (x4 : Vec Ideal S1024x512 .bf16)
    (x5 : Vec Ideal S512x1 .f32) (x0 : Vec Ideal S512x1024 .f32) (p : Fin 512) (q : Fin 1024) :
    k0_pay4 (F := Ideal) x1 x2 x3 x4 x5 x0 (ix2 p q) = Spec.newW (P := 512) (Q := 1024) x0 x1 x2 x3 x4 x5 p q := by
  unfold k0_pay4
  rw [pre_eq]
  simp only [shapeCast_self]
  show min (Ideal.ofBits .f32 0x3F800000#32) (max (Ideal.ofBits .f32 0x00000000#32)
    (x0 (ix2 p q) + Ideal.ofBits .f32 0x3723D70A#32 * matmul dot_S1024x512_S1024x1024_S512x1024_0_0_1_1_n_n none x1 x3 (constant (F := Ideal) S512x1024 .f32 0x00000000#32) (ix2 p q)
      - Ideal.ofBits .f32 0x3723D70A#32 * matmul dot_S1024x512_S1024x1024_S512x1024_0_0_1_1_n_n none x4 x2 (constant (F := Ideal) S512x1024 .f32 0x00000000#32) (ix2 p q)
      + broadcastTo S512x1024 (mulf (broadcast S512x1 (Scalar.ofBits (F := Ideal) .f32 0xBA83126F#32)) (subf x5 (broadcast S512x1 (Scalar.ofBits (F := Ideal) .f32 0x3DCCCCCD#32)))) broadcasts_S512x1_S512x1024 (ix2 p q))) = _
  rw [matmul_batch_apply, matmul_batch_apply, Keepdims.broadcastTo_a1_ab_apply]
  rfl

/-- The carried partial product after the body: what it held plus this column block's product. -/
theorem carried_apply (x2 : Vec Ideal S1024x1024 .bf16) (nw : FVec Ideal S512x1024 .f32) (acc : Vec Ideal S1024x512 .f32)
    (b : Fin 1024) (p : Fin 512) :
    k0_pay1 (F := Ideal) x2 nw acc (ix2 b p) = acc (ix2 b p) + ∑ k : Fin 1024, x2 (ix2 b k) * nw (ix2 p k) := by
  unfold k0_pay1
  simp only [shapeCast_self]
  show acc (ix2 b p) + matmul dot_S1024x1024_S512x1024_S1024x512_1_1_0_0_n_n none x2 (truncf .bf16 nw bitsLt_bf16_f32) (constant (F := Ideal) S1024x512 .f32 0x00000000#32) (ix2 b p) = _
  rw [matmul_cols_apply]
  rfl

end Cert.KernelIdeal.Payload

end
-- ==== Proof.Accumulate.lean ====
/-
  What the two outputs and the carried partial product hold after each grid point.

  At every point the weight block is the update of the point's input blocks.  Along a row block the carried
  [1024, 512] partial product starts at the first column block from zero, and each point adds the product of its
  presynaptic block with its updated weight block: after column block j it holds the sum of the contributions of
  column blocks 0 … j (an induction on the point).  At the fourth column block the body copies it to the output block,
  which is therefore the whole sum over the 4096 columns.
-/
import proofs.«165705_j23270132810155_2_alg».proof.Proof.Blocks
import proofs.«165705_j23270132810155_2_alg».proof.Proof.Pieces
import proofs.«165705_j23270132810155_2_alg».proof.Proof.Payload

noncomputable section

open Idealize.ShloMosaic Idealize.ShloMosaic.TcCoe Idealize.SL.Sem Idealize.ShloMosaic.ValueIdx
open Idealize.ShloMosaic.Pipeline (Dat)

namespace Cert.KernelIdeal.Accumulate

open Cert.KernelIdeal Cert.KernelIdeal.Gen Cert.KernelIdeal.Blocks

variable (m : (ℓ : Loc nD τ sig) → Buf (Elt Ideal) ℓ)

/-- The weight block a point computes from its input blocks. -/
abbrev wblk (c : Dev nD) (t : Fin cfg0.N) : FVec Ideal S512x1024 .f32 :=
  k0_pay4 (F := Ideal) (iblk m c 1 t) (iblk m c 2 t) (iblk m c 3 t) (iblk m c 4 t) (iblk m c 5 t) (iblk m c 0 t)

/-- The weight output after any point is that block. -/
theorem weights_at (c : Dev nD) (t : Fin cfg0.N) : (outsAt0 m c t.val t.isLt).1 = wblk m c t := by
  have hN := lt32 t
  by_cases h0 : t.val % 4 = 0
  · have h1 : ¬t.val % 4 = 3 := by omega
    rw [outsAt0_A m c t h0 h1]
    dsimp only
    exact Pieces.weights_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)
  · by_cases h1 : t.val % 4 = 3
    · rw [outsAt0_C m c t h0 h1]
      dsimp only
      exact Pieces.weights_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2
    · rw [outsAt0_B m c t h0 h1]
      dsimp only
      exact Pieces.weights_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2

/-- At the first column block the carried product restarts from the zero block. -/
theorem carried_at_first (c : Dev nD) (t : Fin cfg0.N) (h0 : t.val % 4 = 0) :
    (outsAt0 m c t.val t.isLt).2.2 = k0_pay1 (F := Ideal) (k0_pay3 (iblk m c 2 t)) (wblk m c t) (k0_pay2 (F := Ideal)) := by
  have h1 : ¬t.val % 4 = 3 := by omega
  rw [outsAt0_A m c t h0 h1]
  dsimp only
  exact Pieces.carried_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- At the other column blocks it continues from what the point before left. -/
theorem carried_at_next (c : Dev nD) (t : Fin cfg0.N) (h0 : ¬t.val % 4 = 0) :
    (outsAt0 m c t.val t.isLt).2.2 = k0_pay1 (F := Ideal) (k0_pay3 (iblk m c 2 t)) (wblk m c t) (outsAt0 m c (t.val - 1) (Nat.lt_of_le_of_lt (Nat.sub_le _ _) t.isLt)).2.2 := by
  by_cases h1 : t.val % 4 = 3
  · rw [outsAt0_C m c t h0 h1]
    dsimp only
    exact Pieces.carried_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2
  · rw [outsAt0_B m c t h0 h1]
    dsimp only
    exact Pieces.carried_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2

/-- At the last column block the output block is the carried product. -/
theorem output_at_last (c : Dev nD) (t : Fin cfg0.N) (h1 : t.val % 4 = 3) :
    (outsAt0 m c t.val t.isLt).2.1 = (outsAt0 m c t.val t.isLt).2.2 := by
  have h0 : ¬t.val % 4 = 0 := by omega
  rw [outsAt0_C m c t h0 h1]
  dsimp only
  exact (Pieces.output_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2).trans
    (Pieces.carried_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2).symm

/-- The weight block of a point, entry by entry: the updated weights at the point's rows and columns. -/
theorem wblk_apply (c : Dev nD) (t : Fin cfg0.N) (p : Fin 512) (q : Fin 1024) :
    wblk m c t (ix2 p q) = Spec.weightsAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (Spec.rowIdx (rowBlk t) p) (Spec.colIdx (colBlk t) q) := by
  refine (Payload.weights_apply (iblk m c 1 t) (iblk m c 2 t) (iblk m c 3 t) (iblk m c 4 t) (iblk m c 5 t) (iblk m c 0 t) p q).trans ?_
  exact Spec.newW_block (m ((c : Thread nD τ).loc main_arg2)) (m ((c : Thread nD τ).loc main_arg1)) (m ((c : Thread nD τ).loc main_arg0))
    (Spec.decayed (m ((c : Thread nD τ).loc main_arg3))) (Spec.decayed (m ((c : Thread nD τ).loc main_arg4))) (Spec.rateCol (m ((c : Thread nD τ).loc main_arg5)))
    (rowBlk t) (colBlk t) (iblk m c 0 t) (iblk m c 1 t) (iblk m c 2 t) (iblk m c 3 t) (iblk m c 4 t) (iblk m c 5 t)
    (blk0 m c t) (blk1 m c t) (blk2 m c t) (blk3 m c t) (blk4 m c t) (blk5 m c t) p q

/-- One body step on the carried product, entry by entry: it adds the point's column block's contribution. -/
theorem step_apply (c : Dev nD) (t : Fin cfg0.N) (acc : Vec Ideal S1024x512 .f32) (b : Fin 1024) (p : Fin 512) :
    k0_pay1 (F := Ideal) (k0_pay3 (iblk m c 2 t)) (wblk m c t) acc (ix2 b p)
      = acc (ix2 b p) + Spec.blockTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowBlk t) (colBlk t) b p := by
  rw [Payload.pre_eq]
  refine (Payload.carried_apply (iblk m c 2 t) (wblk m c t) acc b p).trans ?_
  refine congrArg (acc (ix2 b p) + ·) (Finset.sum_congr rfl fun k _ => ?_)
  rw [blk2 m c t b k, wblk_apply m c t p k]

/-- The column block of a point, as a natural number, names the point's contribution. -/
theorem term_at (c : Dev nD) (t : Fin cfg0.N) (b : Fin 1024) (p : Fin 512) :
    Spec.blockTermN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowBlk t) (t.val % 4) b p = Spec.blockTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowBlk t) (colBlk t) b p :=
  Spec.blockTermN_of_lt _ _ _ _ _ _ (rowBlk t) (colBlk t) b p

/-- THE ACCUMULATION: after the point at column block j of a row block the carried product holds the contributions of
    column blocks 0 … j. -/
theorem carried_eq (c : Dev nD) : ∀ (n : ℕ) (h : n < cfg0.N) (b : Fin 1024) (p : Fin 512),
    (outsAt0 m c n h).2.2 (ix2 b p) = ∑ j ∈ Finset.range (n % 4 + 1), Spec.blockTermN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowBlk ⟨n, h⟩) j b p := by
  intro n
  induction n with
  | zero =>
    intro h b p
    have e := carried_at_first m c ⟨0, h⟩ rfl
    rw [show (outsAt0 m c 0 h).2.2 = _ from e, step_apply, Payload.zero_apply, zero_add, ← term_at]
    exact (Finset.sum_range_one (fun j => Spec.blockTermN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowBlk ⟨0, h⟩) j b p)).symm
  | succ n ih =>
    intro h b p
    by_cases h0 : (n + 1) % 4 = 0
    · have e := carried_at_first m c ⟨n + 1, h⟩ h0
      rw [show (outsAt0 m c (n + 1) h).2.2 = _ from e, step_apply, Payload.zero_apply, zero_add, ← term_at]
      show _ = ∑ j ∈ Finset.range ((n + 1) % 4 + 1), _
      rw [h0]
      exact (Finset.sum_range_one (fun j => Spec.blockTermN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowBlk ⟨n + 1, h⟩) j b p)).symm
    · have e := carried_at_next m c ⟨n + 1, h⟩ h0
      have hlt : n < cfg0.N := Nat.lt_of_succ_lt h
      rw [show (outsAt0 m c (n + 1) h).2.2 = k0_pay1 (F := Ideal) (k0_pay3 (iblk m c 2 ⟨n + 1, h⟩)) (wblk m c ⟨n + 1, h⟩) (outsAt0 m c n hlt).2.2 from e,
        step_apply, ih hlt b p, ← term_at]
      have hr : rowBlk ⟨n, hlt⟩ = rowBlk ⟨n + 1, h⟩ := Fin.ext (by show n / 4 = (n + 1) / 4; omega)
      have hm : (n + 1) % 4 = n % 4 + 1 := by omega
      show _ + Spec.blockTermN _ _ _ _ _ _ _ ((n + 1) % 4) b p = ∑ j ∈ Finset.range ((n + 1) % 4 + 1), _
      rw [hr, hm]
      exact (Finset.sum_range_succ _ _).symm

/-- The current block a point at the last column block writes back, entry by entry: the current at the point's rows. -/
theorem output_apply (c : Dev nD) (t : Fin cfg0.N) (h1 : t.val % 4 = 3) (b : Fin 1024) (p : Fin 512) :
    (outsAt0 m c t.val t.isLt).2.1 (ix2 b p) = Spec.currentOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 b (Spec.rowIdx (rowBlk t) p)) := by
  rw [output_at_last m c t h1, carried_eq m c t.val t.isLt b p, h1, Spec.currentOut_blocks]

end Cert.KernelIdeal.Accumulate

end
-- ==== Proof.Result.lean ====
/-
  The five results of the kernel's program, read off its run.

  The updated weights: every grid point writes back its weight block, the blocks tile the [4096, 4096] array, and each
  block is the matching block of one whole-array function.  The current: only the points at the last column block
  write back, one [1024, 512] block per row block; these eight blocks tile the [1024, 4096] array, and each holds the
  sum over all 4096 columns.  The new traces and the new rate are host lines after the region, over the arguments and
  the decayed traces computed before it.
-/
import proofs.«165705_j23270132810155_2_alg».proof.Proof.Accumulate
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks

variable (m : (ℓ : Loc nD τ sig) → Buf (Elt Ideal) ℓ) (ρ : Dev nD → PrngReg)

/-- The updated weights as an array of the arguments. -/
abbrev weightsG (c : Dev nD) : Buf (Elt Ideal) ((c : Thread nD τ).loc main_v9_0) := Spec.weightsOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The current as an array of the arguments. -/
abbrev currentG (c : Dev nD) : Buf (Elt Ideal) ((c : Thread nD τ).loc main_v9_1) := Spec.currentOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-! ## The updated weights -/

/-- What a point writes back is its block of the updated weights. -/
theorem flushed6_eq (c : Dev nD) (t : Fin cfg0.N) :
    (dats m 0 c).flushed 6 t = ((cfg0.win 6).blk t).view.read (Elt Ideal) (weightsG m c) := by
  show (cfg0.win 6).cut (grid0.coords t) ((dats m 0 c).after 6 t) = _
  rw [after0_6, Accumulate.weights_at]
  funext y
  obtain ⟨p, q, rfl⟩ : ∃ (p : Fin 512) (q : Fin 1024), y = ix2 p q := ⟨y 0, y 1, eq_ix2 y⟩
  show Accumulate.wblk m c t (ix2 p q) = weightsG m c (((cfg0.win 6).blk t).view.emb (ix2 p q))
  rw [Accumulate.wblk_apply, emb6]
  rfl

/-- An index lies in a point's weight block iff each coordinate lies in the block's range. -/
theorem mem_blk6 (t : Fin cfg0.N) (i : S4096x4096.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v9_0).slice (win0_6.rect t)).set ↔ _
  rw [View.set_slice_whole, Rect.mem_set_unit]
  exact Iff.rfl

/-- Every index of the weights is in the block of the point at its row block and column block. -/
theorem cover6 (c : Dev nD) (i : S4096x4096.Idx) :
    ∃ t : Fin cfg0.N, (cfg0.win 6).flush t = true ∧ i ∈ ((cfg0.win 6).blk t).view.set := by
  have hi0 : (i 0).val < 4096 := (i 0).isLt
  have hi1 : (i 1).val < 4096 := (i 1).isLt
  obtain ⟨t, ht⟩ : ∃ t : Fin cfg0.N, t.val = 4 * ((i 0).val / 512) + (i 1).val / 1024 :=
    ⟨⟨4 * ((i 0).val / 512) + (i 1).val / 1024, by rw [show cfg0.N = 32 from N_0]; omega⟩, rfl⟩
  obtain ⟨e0_0, e0_1, e1_0, e1_1, e2_0, e2_1, e3_0, e3_1, e4_0, e4_1, e5_0, e5_1, e6_0, e6_1, e7_0, e7_1⟩ := idx_facts t
  refine ⟨t, flush0_6 t, ?_⟩
  rw [mem_blk6]
  intro a
  match a with
  | ⟨0, _⟩ =>
    show win0_6.index t (0 : Fin 2) * 512 ≤ (i 0).val ∧ (i 0).val < win0_6.index t (0 : Fin 2) * 512 + 512
    rw [e6_0, ht]; omega
  | ⟨1, _⟩ =>
    show win0_6.index t (1 : Fin 2) * 1024 ≤ (i 1).val ∧ (i 1).val < win0_6.index t (1 : Fin 2) * 1024 + 1024
    rw [e6_1, ht]; omega

/-- The weights array after the run. -/
theorem final6 (c : Dev nD) : (dats m 0 c).arrAt 6 cfg0.N = weightsG m c :=
  (dats m 0 c).arrAt_eq_of_cover 6 (weightsG m c) (fun t _ => flushed6_eq m c t) (cover6 c)

/-! ## The current -/

/-- What a point at the last column block writes back is its block of the current. -/
theorem flushed7_eq (c : Dev nD) (t : Fin cfg0.N) (hf : (cfg0.win 7).flush t = true) :
    (dats m 0 c).flushed 7 t = ((cfg0.win 7).blk t).view.read (Elt Ideal) (currentG m c) := by
  have h1 : t.val % 4 = 3 := (flush0_7 t).mp hf
  show (cfg0.win 7).cut (grid0.coords t) ((dats m 0 c).after 7 t) = _
  rw [after0_7]
  funext y
  obtain ⟨b, p, rfl⟩ : ∃ (b : Fin 1024) (p : Fin 512), y = ix2 b p := ⟨y 0, y 1, eq_ix2 y⟩
  show (outsAt0 m c t.val t.isLt).2.1 (ix2 b p) = currentG m c (((cfg0.win 7).blk t).view.emb (ix2 b p))
  rw [Accumulate.output_apply m c t h1, emb7]

/-- An index lies in a point's current block iff each coordinate lies in the block's range. -/
theorem mem_blk7 (t : Fin cfg0.N) (i : S1024x4096.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v9_1).slice (win0_7.rect t)).set ↔ _
  rw [View.set_slice_whole, Rect.mem_set_unit]
  exact Iff.rfl

/-- Every index of the current is in the block written at the last column block of its row block. -/
theorem cover7 (c : Dev nD) (i : S1024x4096.Idx) :
    ∃ t : Fin cfg0.N, (cfg0.win 7).flush t = true ∧ i ∈ ((cfg0.win 7).blk t).view.set := by
  have hi0 : (i 0).val < 1024 := (i 0).isLt
  have hi1 : (i 1).val < 4096 := (i 1).isLt
  obtain ⟨t, ht⟩ : ∃ t : Fin cfg0.N, t.val = 4 * ((i 1).val / 512) + 3 :=
    ⟨⟨4 * ((i 1).val / 512) + 3, by rw [show cfg0.N = 32 from N_0]; omega⟩, rfl⟩
  obtain ⟨e0_0, e0_1, e1_0, e1_1, e2_0, e2_1, e3_0, e3_1, e4_0, e4_1, e5_0, e5_1, e6_0, e6_1, e7_0, e7_1⟩ := idx_facts t
  refine ⟨t, (flush0_7 t).mpr (by rw [ht]; omega), ?_⟩
  rw [mem_blk7]
  intro a
  match a with
  | ⟨0, _⟩ =>
    show win0_7.index t (0 : Fin 2) * 1024 ≤ (i 0).val ∧ (i 0).val < win0_7.index t (0 : Fin 2) * 1024 + 1024
    rw [e7_0]; omega
  | ⟨1, _⟩ =>
    show win0_7.index t (1 : Fin 2) * 512 ≤ (i 1).val ∧ (i 1).val < win0_7.index t (1 : Fin 2) * 512 + 512
    rw [e7_1, ht]; omega

/-- The current array after the run. -/
theorem final7 (c : Dev nD) : (dats m 0 c).arrAt 7 cfg0.N = currentG m c :=
  (dats m 0 c).arrAt_eq_of_cover 7 (currentG m c) (flushed7_eq m c) (cover7 c)

/-! ## The host lines after the region -/

theorem V_v2 (c : Dev nD) : V m c main_v2 = ((mulf (m ((c : Thread nD τ).loc main_arg3)) (broadcastInDim S1024x4096 ![] bcast_S_S1024x4096 (constant (F := Ideal) S_ .f32 0x3F7383C6#32))) : FVec Ideal S1024x4096 .f32) := by
  show StableHlo.after hostOps0 (fun b => m (c, b)) (Proc.devRef .tc main_v2) = _
  after_results
  try rfl

theorem V_v4 (c : Dev nD) : V m c main_v4 = ((mulf (m ((c : Thread nD τ).loc main_arg4)) (broadcastInDim S1024x4096 ![] bcast_S_S1024x4096 (constant (F := Ideal) S_ .f32 0x3F7383C6#32))) : FVec Ideal S1024x4096 .f32) := by
  show StableHlo.after hostOps0 (fun b => m (c, b)) (Proc.devRef .tc main_v4) = _
  after_results
  try rfl

/-- The new presynaptic trace: the decayed trace plus the spikes. -/
theorem tail_v10 (c : Dev nD) :
    Pipeline.afterTail₀ cfgs (dats m) 0 (V0 m) [hostOps1] c main_v10
      = (addf (mulf (m ((c : Thread nD τ).loc main_arg3)) (broadcastInDim S1024x4096 ![] bcast_S_S1024x4096 (constant (F := Ideal) S_ .f32 0x3F7383C6#32))) (m ((c : Thread nD τ).loc main_arg0)) : FVec Ideal S1024x4096 .f32) := by
  unfold Pipeline.afterTail₀
  show StableHlo.after hostOps1 _ (Proc.devRef .tc main_v10) = _
  after_results
  rw [Pipeline.withArrays_of_ne _ c (V0 m c) _ main_v2 (by exact (by decide : ∀ w, Pipeline.arrRef spec0 w ≠ main_v2)), Pipeline.withArrays_of_ne _ c (V0 m c) _ main_arg0 (by exact (by decide : ∀ w, Pipeline.arrRef spec0 w ≠ main_arg0))]
  rw [show V0 m c (Proc.devRef .tc main_v2) = _ from V_v2 m c, show V0 m c (Proc.devRef .tc main_arg0) = _ from V_main_arg0 m c]

/-- The new postsynaptic trace. -/
theorem tail_v11 (c : Dev nD) :
    Pipeline.afterTail₀ cfgs (dats m) 0 (V0 m) [hostOps1] c main_v11
      = (addf (mulf (m ((c : Thread nD τ).loc main_arg4)) (broadcastInDim S1024x4096 ![] bcast_S_S1024x4096 (constant (F := Ideal) S_ .f32 0x3F7383C6#32))) (m ((c : Thread nD τ).loc main_arg1)) : FVec Ideal S1024x4096 .f32) := by
  unfold Pipeline.afterTail₀
  show StableHlo.after hostOps1 _ (Proc.devRef .tc main_v11) = _
  after_results
  rw [Pipeline.withArrays_of_ne _ c (V0 m c) _ main_v4 (by exact (by decide : ∀ w, Pipeline.arrRef spec0 w ≠ main_v4)), Pipeline.withArrays_of_ne _ c (V0 m c) _ main_arg1 (by exact (by decide : ∀ w, Pipeline.arrRef spec0 w ≠ main_arg1))]
  rw [show V0 m c (Proc.devRef .tc main_v4) = _ from V_v4 m c, show V0 m c (Proc.devRef .tc main_arg1) = _ from V_main_arg1 m c]

/-- The new running rate. -/
theorem tail_v19 (c : Dev nD) :
    Pipeline.afterTail₀ cfgs (dats m) 0 (V0 m) [hostOps1] c main_v19 = ((addf (mulf (m ((c : Thread nD τ).loc main_arg5)) (broadcastInDim S4096 ![] bcast_S_S4096 (constant (F := Ideal) S_ .f32 0x3F7D70A4#32))) (mulf (broadcastInDim S4096 ![] bcast_S_S4096 (constant (F := Ideal) S_ .f32 0x3C23D70A#32)) (Host.divf (Host.reduceAdd (m ((c : Thread nD τ).loc main_arg1)) (constant (F := Ideal) S_ .f32 0x00000000#32) reducesTo_S1024x4096_S4096_d0 h_S_) (broadcastInDim S4096 ![] bcast_S_S4096 (constant (F := Ideal) S_ .f32 0x44800000#32))))) : FVec Ideal S4096 .f32) := by
  unfold Pipeline.afterTail₀
  show StableHlo.after hostOps1 _ (Proc.devRef .tc main_v19) = _
  after_results
  rw [Pipeline.withArrays_of_ne _ c (V0 m c) _ main_arg5 (by exact (by decide : ∀ w, Pipeline.arrRef spec0 w ≠ main_arg5)), Pipeline.withArrays_of_ne _ c (V0 m c) _ main_arg1 (by exact (by decide : ∀ w, Pipeline.arrRef spec0 w ≠ main_arg1))]
  rw [show V0 m c (Proc.devRef .tc main_arg5) = _ from V_main_arg5 m c, show V0 m c (Proc.devRef .tc main_arg1) = _ from V_main_arg1 m c]

/-! ## The run -/

/-- Every execution of the kernel's program ends with the five results at these functions of the arguments, and the
    arguments as they were. -/
theorem run : θ_run defs (onTc (τ := τ) (main (F := Ideal))) ⟨m, fun _ => 0, ρ⟩ fun r => ∀ c : Dev nD,
      r.2.mem ((c.tc : Thread nD τ).loc main_v9_1) = currentG m c
      ∧ r.2.mem ((c.tc : Thread nD τ).loc main_v9_0) = weightsG m c
      ∧ r.2.mem ((c.tc : Thread nD τ).loc main_v10) = (addf (mulf (m ((c : Thread nD τ).loc main_arg3)) (broadcastInDim S1024x4096 ![] bcast_S_S1024x4096 (constant (F := Ideal) S_ .f32 0x3F7383C6#32))) (m ((c : Thread nD τ).loc main_arg0)) : FVec Ideal S1024x4096 .f32)
      ∧ r.2.mem ((c.tc : Thread nD τ).loc main_v11) = (addf (mulf (m ((c : Thread nD τ).loc main_arg4)) (broadcastInDim S1024x4096 ![] bcast_S_S1024x4096 (constant (F := Ideal) S_ .f32 0x3F7383C6#32))) (m ((c : Thread nD τ).loc main_arg1)) : FVec Ideal S1024x4096 .f32)
      ∧ r.2.mem ((c.tc : Thread nD τ).loc main_v19) = ((addf (mulf (m ((c : Thread nD τ).loc main_arg5)) (broadcastInDim S4096 ![] bcast_S_S4096 (constant (F := Ideal) S_ .f32 0x3F7D70A4#32))) (mulf (broadcastInDim S4096 ![] bcast_S_S4096 (constant (F := Ideal) S_ .f32 0x3C23D70A#32)) (Host.divf (Host.reduceAdd (m ((c : Thread nD τ).loc main_arg1)) (constant (F := Ideal) S_ .f32 0x00000000#32) reducesTo_S1024x4096_S4096_d0 h_S_) (broadcastInDim S4096 ![] bcast_S_S4096 (constant (F := Ideal) S_ .f32 0x44800000#32))))) : FVec Ideal S4096 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 7).trans (final7 m c), ((h c).1 6).trans (final6 m c),
      ((h c).2 main_v10 (Pipeline.mem_restRefs_of main_v10 (by decide) (by decide))).trans (tail_v10 m c),
      ((h c).2 main_v11 (Pipeline.mem_restRefs_of main_v11 (by decide) (by decide))).trans (tail_v11 m c),
      ((h c).2 main_v19 (Pipeline.mem_restRefs_of main_v19 (by decide) (by decide))).trans (tail_v19 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.RefValue.lean ====
/-
  The reference computes the same two functions.

  Its updated weight at (r, s) multiplies each correlation sum by the rate (by its negative) and divides by the
  batch size, adds both to the weight, adds the homeostatic term and clips: `Spec.update_eq` turns that into the
  kernel's spelling.  Its current is the presynaptic spikes times the TRANSPOSE of the updated weights, contracted
  over the 4096 columns: at (b, r), Σ_k pre[b,k] · w'[r,k].
-/
import proofs.«165705_j23270132810155_2_alg».proof.Proof.Gen.ReferenceIdeal.Read
import proofs.«165705_j23270132810155_2_alg».proof.Proof.Spec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The reference's updated weight at (r, s). -/
theorem weights_apply (x0 x1 : (⟨S1024x4096, .f32⟩ : BufTy).Contents (Elt Ideal)) (x2 : (⟨S4096x4096, .f32⟩ : BufTy).Contents (Elt Ideal)) (x3 x4 : (⟨S1024x4096, .f32⟩ : BufTy).Contents (Elt Ideal)) (x5 : (⟨S4096, .f32⟩ : BufTy).Contents (Elt Ideal)) (r s : Fin 4096) :
    val_main_v23 (F := Ideal) x0 x1 x2 x3 x4 x5 (ix2 r s) = Spec.weightsAt x0 x1 x2 x3 x4 x5 r s := by
  have el4 : ∀ k : Fin 1024, lidx_main_v4 (ix2 r s) k = ix2 k r := fun k => funext fun a => Fin.ext (by
    match a with | ⟨0, _⟩ => rfl | ⟨1, _⟩ => rfl)
  have er4 : ∀ k : Fin 1024, ridx_main_v4 (ix2 r s) k = ix2 k s := fun k => funext fun a => Fin.ext (by
    match a with | ⟨0, _⟩ => rfl | ⟨1, _⟩ => rfl)
  have el9 : ∀ k : Fin 1024, lidx_main_v9 (ix2 r s) k = ix2 k r := fun k => funext fun a => Fin.ext (by
    match a with | ⟨0, _⟩ => rfl | ⟨1, _⟩ => rfl)
  have er9 : ∀ k : Fin 1024, ridx_main_v9 (ix2 r s) k = ix2 k s := fun k => funext fun a => Fin.ext (by
    match a with | ⟨0, _⟩ => rfl | ⟨1, _⟩ => rfl)
  have e21 : idx_main_v16 (idx_main_v21 (ix2 r s)) = ix1 r := funext fun a => Fin.ext (by
    match a with | ⟨0, _⟩ => rfl)
  simp only [val_main_v23_apply, val_main_call0_v4_apply, val_main_call0_v3_apply, val_main_cst_8_apply, val_main_call0_v2_apply, val_main_call0_v1_apply, val_main_call0_v0_apply, val_main_cst_7_apply, val_main_v22_apply, val_main_v20_apply, val_main_v19_apply, val_main_v8_apply, val_main_v6_apply, val_main_v5_apply, val_main_cst_1_apply, val_main_v4_apply, val_main_v1_apply, val_main_v0_apply, val_main_cst_apply, val_main_v7_apply, val_main_cst_2_apply, val_main_v13_apply, val_main_v11_apply, val_main_v10_apply, val_main_cst_3_apply, val_main_v9_apply, val_main_v3_apply, val_main_v2_apply, val_main_cst_0_apply, val_main_v12_apply, val_main_cst_4_apply, val_main_v21_apply, val_main_v18_apply, val_main_v17_apply, val_main_cst_6_apply, val_main_v16_apply, val_main_v15_apply, val_main_v14_apply, val_main_cst_5_apply, el4, er4, el9, er9, e21]
  simp only [Ideal.ofBits_def, Ideal.minimumf_def, Ideal.maximumf_def, Ideal.addf_def, Ideal.mulf_def, Ideal.subf_def, Ideal.hostDivf_def]
  rw [Spec.update_eq]
  rfl

/-- The reference's updated weights are the array `Spec.weightsOut`. -/
theorem weights_eq (x0 x1 : (⟨S1024x4096, .f32⟩ : BufTy).Contents (Elt Ideal)) (x2 : (⟨S4096x4096, .f32⟩ : BufTy).Contents (Elt Ideal)) (x3 x4 : (⟨S1024x4096, .f32⟩ : BufTy).Contents (Elt Ideal)) (x5 : (⟨S4096, .f32⟩ : BufTy).Contents (Elt Ideal)) :
    val_main_v23 (F := Ideal) x0 x1 x2 x3 x4 x5 = Spec.weightsOut x0 x1 x2 x3 x4 x5 := by
  funext i
  obtain ⟨r, s, rfl⟩ : ∃ (r s : Fin 4096), i = ix2 r s := ⟨i 0, i 1, eq_ix2 i⟩
  exact weights_apply x0 x1 x2 x3 x4 x5 r s

/-- The reference's current is the array `Spec.currentOut`. -/
theorem current_eq (x0 x1 : (⟨S1024x4096, .f32⟩ : BufTy).Contents (Elt Ideal)) (x2 : (⟨S4096x4096, .f32⟩ : BufTy).Contents (Elt Ideal)) (x3 x4 : (⟨S1024x4096, .f32⟩ : BufTy).Contents (Elt Ideal)) (x5 : (⟨S4096, .f32⟩ : BufTy).Contents (Elt Ideal)) :
    val_main_v35 (F := Ideal) x0 x1 x2 x3 x4 x5 = Spec.currentOut x0 x1 x2 x3 x4 x5 := by
  funext i
  obtain ⟨b, r, rfl⟩ : ∃ (b : Fin 1024) (r : Fin 4096), i = ix2 b r := ⟨i 0, i 1, eq_ix2 i⟩
  rw [val_main_v35_apply]
  refine Finset.sum_congr rfl fun k _ => ?_
  have el : lidx_main_v35 (ix2 b r) k = ix2 b k := funext fun a => Fin.ext (by
    match a with | ⟨0, _⟩ => rfl | ⟨1, _⟩ => rfl)
  have er : idx_main_v34 (ridx_main_v35 (ix2 b r) k) = ix2 r k := funext fun a => Fin.ext (by
    match a with | ⟨0, _⟩ => rfl | ⟨1, _⟩ => rfl)
  rw [val_main_v34_apply, el, er, weights_apply]

end Cert.ReferenceIdeal.RefValue

end
-- ==== Proof.lean ====
/-
  One step of spike-timing-dependent plasticity with homeostasis, as a fused kernel against its jnp reference,
  equal on the extended reals.

  Both programs return, from presynaptic and postsynaptic spikes, the weights, the two traces and the running rate:
  the postsynaptic current under the updated weights, the updated weights, the two new traces and the new rate.

  * The updated weight at (p, q) is the clip to [0, 1] of
      w[p,q] + κ · Σ_b post[b,p] · preTrace'[b,q] − κ · Σ_b postTrace'[b,p] · pre[b,q] − 0.001 · (rate[p] − 0.1),
    the traces decayed by one step.  The kernel's κ is the learning rate divided by the batch size 1024, one binary32
    literal; the reference multiplies by the rate (by its negative) and divides by 1024.  The literal 1024 being a
    power of two, the two factors are one real number, and a product with a real factor re-associates on the
    extended reals without any finiteness: the precondition is not used.
  * The current at (b, p) is Σ_k pre[b,k] · w'[p,k] over 4096 columns.  The kernel computes it per row block of 512
    rows as four partial products over column blocks of 1024 columns, carried in a scratch buffer from zero, and
    writes the block back at the fourth; the reference contracts all 4096 columns of the transposed weights at once.
    A finite sum of extended reals does not depend on its grouping.
  * The new traces and the new rate are the same host operations in both programs.

  The kernel's frames are the generated ones; its five results are read off the generated frame run (Proof/Result.lean
  and the modules under it); the reference's run and its stages are the generated Run and Read modules, joined to the
  same two functions in Proof/RefValue.lean.
-/
import proofs.«165705_j23270132810155_2_alg».proof.Defs
import proofs.«165705_j23270132810155_2_alg».proof.Proof.Gen.Kernel
import proofs.«165705_j23270132810155_2_alg».proof.Proof.Gen.Kernel.Skeleton
import proofs.«165705_j23270132810155_2_alg».proof.Proof.Gen.Kernel.Launch
import proofs.«165705_j23270132810155_2_alg».proof.Proof.Gen.Kernel.Points
import proofs.«165705_j23270132810155_2_alg».proof.Proof.Gen.Kernel.Frame
import proofs.«165705_j23270132810155_2_alg».proof.Proof.Gen.KernelIdeal
import proofs.«165705_j23270132810155_2_alg».proof.Proof.Gen.KernelIdeal.Skeleton
import proofs.«165705_j23270132810155_2_alg».proof.Proof.Gen.KernelIdeal.Launch
import proofs.«165705_j23270132810155_2_alg».proof.Proof.Gen.KernelIdeal.Points
import proofs.«165705_j23270132810155_2_alg».proof.Proof.Gen.KernelIdeal.Frame
import proofs.«165705_j23270132810155_2_alg».proof.Proof.Gen.ReferenceIdeal
import proofs.«165705_j23270132810155_2_alg».proof.Proof.Gen.Pre_finite_inputs
import proofs.«165705_j23270132810155_2_alg».proof.Proof.Gen.ReferenceIdeal.Run
import proofs.«165705_j23270132810155_2_alg».proof.Proof.Gen.ReferenceIdeal.Read
import proofs.«165705_j23270132810155_2_alg».proof.Proof.Result
import proofs.«165705_j23270132810155_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- The idealization rewrote nothing. -/
theorem preserves : Cert.preserves_Kernel_KernelIdeal := trivial

/-- Both programs end with the current and the updated weights at `Spec.currentOut` / `Spec.weightsOut` of the
    arguments, and with the new traces and the new rate at the same host expressions of the arguments. -/
theorem algebraic : Cert.algebraic_KernelIdeal_ReferenceIdeal := by
  intro m ρ m' ρ' _ hagree
  refine ⟨_, _, _, _, _, Cert.KernelIdeal.Result.run m ρ, ?_⟩
  refine (θ_run Cert.ReferenceIdeal.defs _ _).mono (fun _ h c => ?_) (Cert.ReferenceIdeal.Value.run (F := Ideal) m' ρ')
  obtain ⟨h35, h23, h32, h33, h31, ha0, ha1, ha2, ha3, ha4, ha5⟩ := h c
  obtain ⟨g0, g1, g2, g3, g4, g5⟩ := hagree c
  refine ⟨h35.trans ?_, h23.trans ?_, h32.trans ?_, h33.trans ?_, h31.trans ?_, ha0, ha1, ha2, ha3, ha4, ha5⟩
  · rw [Cert.ReferenceIdeal.Read.val_main_v35_eq, Cert.ReferenceIdeal.RefValue.current_eq, g0, g1, g2, g3, g4, g5]
  · rw [Cert.ReferenceIdeal.Read.val_main_v23_eq, Cert.ReferenceIdeal.RefValue.weights_eq, g0, g1, g2, g3, g4, g5]
  · rw [g0, g3]
  · rw [g1, g4]
  · rw [g1, g5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
